-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v70)) (v1 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S800000 : Shape := ⟨1, ![800000]⟩
abbrev S512x64 : Shape := ⟨2, ![512, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S64x32 : Shape := ⟨2, ![64, 32]⟩
abbrev S32 : Shape := ⟨1, ![32]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S16 .f32) (main_arg9 : FVec F S64x32 .f32) (main_arg10 : FVec F S32 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S64x32 .f32 := Host.absf main_arg9
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x16 .f32) (main_arg8 : FVec F S16 .f32) (main_arg9 : FVec F S64x32 .f32) (main_arg10 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x16 .f32 := Host.absf main_arg7
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x512 .f32) (main_arg1 : IVec S2x800000 32) (main_arg2 : FVec F S800000 .f32) (main_arg3 : FVec F S512x64 .f32) (main_arg4 : FVec F S64 .f32) (main_arg5 : FVec F S64x64 .f32) (main_arg6 : FVec F S64 .f32) (main_arg7 : FVec F S64x16 .f32) (main_arg8 : FVec F S16 .f32) (main_arg9 : FVec F S64x32 .f32) (main_arg10 : FVec F S32 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x64 .f32 := Host.absf main_arg3
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x512 : Shape := ⟨2, ![50000, 512]⟩
abbrev S2x800000 : Shape := ⟨2, ![2, 800000]⟩
abbrev S800000 : Shape := ⟨1, ![800000]⟩
abbrev S512x64 : Shape := ⟨2, ![512, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S64x32 : Shape := ⟨2, ![64, 32]⟩
abbrev S32 : Shape := ⟨1, ![32]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S2000x512 : Shape := ⟨2, ![2000, 512]⟩
abbrev S2000x64 : Shape := ⟨2, ![2000, 64]⟩
abbrev S850000x64 : Shape := ⟨2, ![850000, 64]⟩
abbrev S1x64 : Shape := ⟨2, ![1, 64]⟩
abbrev S64x48 : Shape := ⟨2, ![64, 48]⟩
abbrev S48 : Shape := ⟨1, ![48]⟩
abbrev S50000x48 : Shape := ⟨2, ![50000, 48]⟩
abbrev S2000x48 : Shape := ⟨2, ![2000, 48]⟩
abbrev S1x48 : Shape := ⟨2, ![1, 48]⟩
abbrev S50000x16 : Shape := ⟨2, ![50000, 16]⟩
abbrev S50000x32 : Shape := ⟨2, ![50000, 32]⟩

abbrev nBuf : Space → Nat
  | .hbm => 101
  | .vmem => 16
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S800000, .f32⟩
  | .hbm, ⟨3, _⟩ => ⟨S512x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S64x32, .f32⟩
  | .hbm, ⟨10, _⟩ => ⟨S32, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S50000, .i32⟩
  | .hbm, ⟨16, _⟩ => ⟨S850000, .i32⟩
  | .hbm, ⟨17, _⟩ => ⟨S850000, .i32⟩
  | .hbm, ⟨18, _⟩ => ⟨S_, .f32⟩
  | .hbm, ⟨19, _⟩ => ⟨S50000, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S50000x64, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x64, .f32⟩
  | .hbm, ⟨63, _⟩ => ⟨S850000x1, .f32⟩
  | .hbm, ⟨64, _⟩ => ⟨S850000x64, .f32⟩
  | .hbm, ⟨65, _⟩ => ⟨S850000x64, .f32⟩
  | .hbm, ⟨66, _⟩ => ⟨S_, .f32⟩
  | .hbm, ⟨67, _⟩ => ⟨S50000x64, .f32⟩
  | .hbm, ⟨68, _⟩ => ⟨S850000x1, .i32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S50000x64, .f32⟩
  | .hbm, ⟨73, _⟩ => ⟨S_, .f32⟩
  | .hbm, ⟨74, _⟩ => ⟨S50000x64, .f32⟩
  | .hbm, ⟨75, _⟩ => ⟨S50000x64, .f32⟩
  | .hbm, ⟨76, _⟩ => ⟨S50000x64, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000x64, .f32⟩
  | .hbm, ⟨86, _⟩ => ⟨S850000x1, .f32⟩
  | .hbm, ⟨87, _⟩ => ⟨S850000x64, .f32⟩
  | .hbm, ⟨88, _⟩ => ⟨S850000x64, .f32⟩
  | .hbm, ⟨89, _⟩ => ⟨S_, .f32⟩
  | .hbm, ⟨90, _⟩ => ⟨S50000x64, .f32⟩
  | .hbm, ⟨91, _⟩ => ⟨S850000x1, .i32⟩
  | .hbm, ⟨92, _⟩ => ⟨S50000x64, .f32⟩
  | .hbm, ⟨93, _⟩ => ⟨S1x64, .f32⟩
  | .hbm, ⟨94, _⟩ => ⟨S50000x64, .f32⟩
  | .hbm, ⟨95, _⟩ => ⟨S50000x64, .f32⟩
  | .hbm, ⟨96, _⟩ => ⟨S64x48, .f32⟩
  | .hbm, ⟨97, _⟩ => ⟨S48, .f32⟩
  | .hbm, ⟨98, _⟩ => ⟨S50000x48, .f32⟩
  | .hbm, ⟨99, _⟩ => ⟨S50000x16, .f32⟩
  | .hbm, ⟨100, _⟩ => ⟨S50000x32, .f32⟩
  | .local _ .vmem, ⟨0, _⟩ => ⟨S2000x512, .f32⟩
  | .local _ .vmem, ⟨1, _⟩ => ⟨S2000x512, .f32⟩
  | .local _ .vmem, ⟨2, _⟩ => ⟨S512x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S64x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x48, .f32⟩
  | .local _ .vmem, ⟨13, _⟩ => ⟨S48, .f32⟩
  | .local _ .vmem, ⟨14, _⟩ => ⟨S2000x48, .f32⟩
  | .local _ .vmem, ⟨15, _⟩ => ⟨S2000x48, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_9 : Ref sig .tc := ⟨.hbm, 77, rfl⟩
abbrev main_v51 : Ref sig .tc := ⟨.hbm, 78, rfl⟩
abbrev main_v52 : Ref sig .tc := ⟨.hbm, 79, rfl⟩
abbrev main_c_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x48 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S48 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x48 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  concatenates_S64x16_S64x32_S64x48_d1 : Shape.Concatenates [S64x16, S64x32] S64x48 1
  concatenates_S16_S32_S48_d0 : Shape.Concatenates [S16, S32] S48 0
  inb_S64x48_S64x48_0_0 : ∀ a, (![0, 0] : Fin 2 → Nat) a + S64x48.size a ≤ S64x48.size a
  h_S64x48 : 0 < S64x48.numel
  shapeCasts_S64x48_S64x48 : S64x48.ShapeCasts S64x48
  inb_S48_S48_0 : ∀ a, (![0] : Fin 1 → Nat) a + S48.size a ≤ S48.size a
  h_S48 : 0 < S48.numel
  shapeCasts_S48_S48 : S48.ShapeCasts S48
  shapeCasts_S48_S1x48 : S48.ShapeCasts S1x48
  broadcasts_S1x48_S2000x48 : S1x48.Broadcasts S2000x48
  inb_S2000x48_S2000x48_0_0 : ∀ a, (![0, 0] : Fin 2 → Nat) a + S2000x48.size a ≤ S2000x48.size a
  h_S2000x48 : 0 < S2000x48.numel
  slices_S50000x48_S50000x16_0_0 : S50000x48.Slices ![0, 0] S50000x16
  slices_S50000x48_S50000x32_0_16 : S50000x48.Slices ![0, 16] S50000x32
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x64_S2000x64_1_0_0_1_n_n_wf : DotDims.WF S2000x512 S512x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x64_S2000x64_1_0_0_1_n_n_wf : DotDims.WF S2000x64 S64x64 S2000x64 [1] [0] [0] [1] [] []
  dot_S2000x64_S64x48_S2000x48_1_0_0_1_n_n_wf : DotDims.WF S2000x64 S64x48 S2000x48 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x48.size a ≤ S64x48.size a
  hwx2_1 : ∀ i : grid2.Coords, EltTy.bits .f32 = 32 ∨ (Rect.block (s := S64x48) S64x48.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S48.size a ≤ S48.size a
  hwx2_2 : ∀ i : grid2.Coords, EltTy.bits .f32 = 32 ∨ (Rect.block (s := S48) S48.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x48.size a ≤ S50000x48.size a
  hwx2_3 : ∀ i : grid2.Coords, EltTy.bits .f32 = 32 ∨ (Rect.block (s := S50000x48) S2000x48.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x48_S2000x48_1_0_0_1_n_n : DotDims S2000x64 S64x48 S2000x48 where
  lhsContracting := [1]
  rhsContracting := [0]
  lhsNonContracting := [0]
  rhsNonContracting := [1]
  lhsBatch := []
  rhsBatch := []
  wf := dot_S2000x64_S64x48_S2000x48_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S64x48.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S48.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S2000x48.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S800000 : Shape := ⟨1, ![800000]⟩
abbrev S512x64 : Shape := ⟨2, ![512, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S64x32 : Shape := ⟨2, ![64, 32]⟩
abbrev S32 : Shape := ⟨1, ![32]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x16 : Shape := ⟨2, ![50000, 16]⟩
abbrev S1x16 : Shape := ⟨2, ![1, 16]⟩
abbrev S50000x32 : Shape := ⟨2, ![50000, 32]⟩
abbrev S1x32 : Shape := ⟨2, ![1, 32]⟩

abbrev nBuf : Space → Nat
  | .hbm => 146
  | .vmem => 0
  | .smem => 0
  | _ => 0

abbrev hbmTy0_0 (i : Nat) : BufTy := match i % 128 with
  | 0 => ⟨S50000x512, .f32⟩
  | 1 => ⟨S2x800000, .i32⟩
  | 2 => ⟨S800000, .f32⟩
  | 3 => ⟨S512x64, .f32⟩
  | 4 => ⟨S64, .f32⟩
  | 5 => ⟨S64x64, .f32⟩
  | 6 => ⟨S64, .f32⟩
  | 7 => ⟨S64x16, .f32⟩
  | 8 => ⟨S16, .f32⟩
  | 9 => ⟨S64x32, .f32⟩
  | 10 => ⟨S32, .f32⟩
  | 11 => ⟨S1x800000, .i32⟩
  | 12 => ⟨S800000, .i32⟩
  | 13 => ⟨S1x800000, .i32⟩
  | 14 => ⟨S800000, .i32⟩
  | 15 => ⟨S50000, .i32⟩
  | 16 => ⟨S850000, .i32⟩
  | 17 => ⟨S850000, .i32⟩
  | 18 => ⟨S_, .f32⟩
  | 19 => ⟨S50000, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x64, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x64, .f32⟩
  | 63 => ⟨S850000x1, .f32⟩
  | 64 => ⟨S850000x64, .f32⟩
  | 65 => ⟨S850000x64, .f32⟩
  | 66 => ⟨S_, .f32⟩
  | 67 => ⟨S50000x64, .f32⟩
  | 68 => ⟨S850000x1, .i32⟩
  | 69 => ⟨S50000x64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S1x800000, .i32⟩
  | 77 => ⟨S800000, .i32⟩
  | 78 => ⟨S1x800000, .i32⟩
  | 79 => ⟨S800000, .i32⟩
  | 80 => ⟨S50000, .i32⟩
  | 81 => ⟨S850000, .i32⟩
  | 82 => ⟨S850000, .i32⟩
  | 83 => ⟨S_, .f32⟩
  | 84 => ⟨S50000, .f32⟩
  | 85 => ⟨S850000, .f32⟩
  | 86 => ⟨S_, .f32⟩
  | 87 => ⟨S50000, .f32⟩
  | 88 => ⟨S850000x1, .i32⟩
  | 89 => ⟨S50000, .f32⟩
  | 90 => ⟨S_, .f32⟩
  | 91 => ⟨S50000, .f32⟩
  | 92 => ⟨S50000, .i1⟩
  | 93 => ⟨S50000, .f32⟩
  | 94 => ⟨S_, .f32⟩
  | 95 => ⟨S_, .f32⟩
  | 96 => ⟨S50000, .f32⟩
  | 97 => ⟨S50000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S850000, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000, .f32⟩
  | 117 => ⟨S850000, .f32⟩
  | 118 => ⟨S50000x64, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000x64, .f32⟩
  | _ => ⟨S50000x512, .f32⟩

abbrev hbmTy0_1 (i : Nat) : BufTy := match i % 128 with
  | 0 => ⟨S850000x1, .f32⟩
  | 1 => ⟨S850000x64, .f32⟩
  | 2 => ⟨S850000x64, .f32⟩
  | 3 => ⟨S_, .f32⟩
  | 4 => ⟨S50000x64, .f32⟩
  | 5 => ⟨S850000x1, .i32⟩
  | 6 => ⟨S50000x64, .f32⟩
  | 7 => ⟨S1x64, .f32⟩
  | 8 => ⟨S50000x64, .f32⟩
  | 9 => ⟨S50000x64, .f32⟩
  | 10 => ⟨S50000x16, .f32⟩
  | 11 => ⟨S1x16, .f32⟩
  | 12 => ⟨S50000x16, .f32⟩
  | 13 => ⟨S50000x16, .f32⟩
  | 14 => ⟨S50000x32, .f32⟩
  | 15 => ⟨S1x32, .f32⟩
  | 16 => ⟨S50000x32, .f32⟩
  | 17 => ⟨S50000x32, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_9 : Ref sig .tc := ⟨.hbm, 83, rfl⟩
abbrev main_v57 : Ref sig .tc := ⟨.hbm, 84, rfl⟩
abbrev main_v58 : Ref sig .tc := ⟨.hbm, 85, rfl⟩
abbrev main_cst_10 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_12 : Ref sig .tc := ⟨.hbm, 94, rfl⟩
abbrev main_call2_v0 : Ref sig .tc := ⟨.hbm, 95, rfl⟩
abbrev main_call2_v1 : Ref sig .tc := ⟨.hbm, 96, rfl⟩
abbrev main_v65 : Ref sig .tc := ⟨.hbm, 97, rfl⟩
abbrev main_c_13 : Ref sig .tc := ⟨.hbm, 98, rfl⟩
abbrev main_v66 : Ref sig .tc := ⟨.hbm, 99, rfl⟩
abbrev main_v67 : Ref sig .tc := ⟨.hbm, 100, rfl⟩
abbrev main_c_14 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_15 : Ref sig .tc := ⟨.hbm, 108, rfl⟩
abbrev main_v74 : Ref sig .tc := ⟨.hbm, 109, rfl⟩
abbrev main_v75 : Ref sig .tc := ⟨.hbm, 110, rfl⟩
abbrev main_c_16 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_c_17 : Ref sig .tc := ⟨.hbm, 119, rfl⟩
abbrev main_v83 : Ref sig .tc := ⟨.hbm, 120, rfl⟩
abbrev main_v84 : Ref sig .tc := ⟨.hbm, 121, rfl⟩
abbrev main_c_18 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_19 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x64_S50000x64_1_0_0_1_n_n_wf : DotDims.WF S50000x512 S512x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x16_S50000x16_1_0_0_1_n_n_wf : DotDims.WF S50000x64 S64x16 S50000x16 [1] [0] [0] [1] [] []
  dot_S50000x64_S64x32_S50000x32_1_0_0_1_n_n_wf : DotDims.WF S50000x64 S64x32 S50000x32 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf

class Facts : Prop extends Facts₀ where

variable [Facts]
-- ==== Proof.KernelRun.lean ====
/-
  The kernel program's run with its two results NAMED. The launch is the one the generated frame uses — @main's ten
  segments (seven stretches of host operations, three regions) chained from the launch memory —; here the final state
  is read at the two result buffers as well as at the arguments: each ends at the last boundary's contents (the fold
  `W10` of the host stretches and the regions' write-backs over the launch memory), and each argument ends as launched.
-/
import proofs.«167516_j5712306503711_1_alg».proof.Proof.Gen.KernelIdeal.Frame

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the two results end at the last boundary's
    contents and the argument arrays as launched. -/
theorem run : θ_run defs (onTc (τ := τ) (main (F := F))) ⟨m, fun _ => 0, ρ⟩ (fun r => ∀ c : Dev nD,
      r.2.mem ((c.tc : Thread nD τ).loc main_v70) = W10 m ρ c (Proc.devRef .tc main_v70)
      ∧ r.2.mem ((c.tc : Thread nD τ).loc main_v71) = W10 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v70 (by decide)),
       h c _ (mem_uc main_v71 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.Results

end
-- ==== Proof.Entry0.lean ====
/-
  What region 0 finds. Before the first dense layer the host computes, from the edge list and the edge weights alone,
  the graph's normalisation: the source and target index vectors with one self loop per node appended, the weights
  with a one per self loop appended, the weighted in-degree of every node (a scatter-add of the weights onto zeros),
  its inverse square root where the degree is positive and zero elsewhere, and per edge the product of the two end
  points' factors with the weight. The reference performs the SAME operations, so each buffer holds the reference's
  stage of the same name, as a function of the two arguments; the fold over the host operations is cut at its three
  stretches so that each comparison opens one stretch only. No argument array is written.
-/
import proofs.«167516_j5712306503711_1_alg».proof.Proof.Gen.KernelIdeal.Frame
import proofs.«167516_j5712306503711_1_alg».proof.Proof.Gen.ReferenceIdeal.Read
import Idealize.ShloMosaic.Lib.StableHlo.Run

set_option maxRecDepth 16384

noncomputable section

namespace Cert.KernelIdeal.Entry0

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## After the first stretch (19 operations) -/

theorem W1_v5 (c : Dev nD) : W1 m ρ c (Proc.devRef .tc main_v5) = Cert.ReferenceIdeal.Read.val_main_v5 (F := Ideal) (m ((c : Thread nD τ).loc main_arg1)) := by
  dsimp only [W1, hostOps0]; after_results_simp; rfl
theorem W1_v6 (c : Dev nD) : W1 m ρ c (Proc.devRef .tc main_v6) = Cert.ReferenceIdeal.Read.val_main_v6 (F := Ideal) (m ((c : Thread nD τ).loc main_arg1)) := by
  dsimp only [W1, hostOps0]; after_results_simp; rfl
theorem W1_v8 (c : Dev nD) : W1 m ρ c (Proc.devRef .tc main_v8) = Cert.ReferenceIdeal.Read.val_main_v8 (F := Ideal) (m ((c : Thread nD τ).loc main_arg2)) := by
  dsimp only [W1, hostOps0]; after_results_simp; rfl
/-- Is the weighted in-degree positive? -/
theorem W1_v13 (c : Dev nD) : W1 m ρ c (Proc.devRef .tc main_v13) = Cert.ReferenceIdeal.Read.val_main_v13 (F := Ideal) (m ((c : Thread nD τ).loc main_arg1)) (m ((c : Thread nD τ).loc main_arg2)) := by
  dsimp only [W1, hostOps0]; after_results_simp
  simp only [Cert.ReferenceIdeal.Read.val_main_v13, Cert.ReferenceIdeal.Read.val_main_v12, Cert.ReferenceIdeal.Read.val_main_cst_1, Cert.ReferenceIdeal.Read.val_main_v11, Cert.ReferenceIdeal.Read.val_main_v10, Cert.ReferenceIdeal.Read.val_main_v9, Cert.ReferenceIdeal.Read.val_main_cst_0]
  rfl
/-- The inverse square root of the weighted in-degree. -/
theorem W1_v14 (c : Dev nD) : W1 m ρ c (Proc.devRef .tc main_v14) = Cert.ReferenceIdeal.Read.val_main_v14 (F := Ideal) (m ((c : Thread nD τ).loc main_arg1)) (m ((c : Thread nD τ).loc main_arg2)) := by
  dsimp only [W1, hostOps0]; after_results_simp
  simp only [Cert.ReferenceIdeal.Read.val_main_v14, Cert.ReferenceIdeal.Read.val_main_v11, Cert.ReferenceIdeal.Read.val_main_v10, Cert.ReferenceIdeal.Read.val_main_v9, Cert.ReferenceIdeal.Read.val_main_cst_0]
  rfl
theorem W1_cst_2 (c : Dev nD) : W1 m ρ c (Proc.devRef .tc main_cst_2) = Cert.ReferenceIdeal.Read.val_main_cst_2 (F := Ideal) := by
  dsimp only [W1, hostOps0]; after_results_simp; rfl

/-! ## After the call that selects the factor (3 operations) -/

/-- The call that selects the factor, over ANY contents at its entry: the inverse square root where the degree is
    positive, the scalar zero laid along every node elsewhere. -/
theorem where_step (F : Valuation τ sig (Elt Ideal)) :
    StableHlo.after hostOps0_1 F (Proc.devRef .tc main_v15)
      = select (F (Proc.devRef .tc main_v13)) (F (Proc.devRef .tc main_v14)) (broadcastInDim S50000 ![] bcast_S_S50000 (id (F (Proc.devRef .tc main_cst_2)))) := by
  dsimp only [hostOps0_1]; after_results_simp
  rfl
/-- The per-node factor: the inverse square root where the degree is positive, zero elsewhere. -/
theorem W2_v15 (c : Dev nD) : W2 m ρ c (Proc.devRef .tc main_v15) = Cert.ReferenceIdeal.Read.val_main_v15 (F := Ideal) (m ((c : Thread nD τ).loc main_arg1)) (m ((c : Thread nD τ).loc main_arg2)) := by
  have h13 := W1_v13 m ρ c; have h14 := W1_v14 m ρ c; have hc := W1_cst_2 m ρ c
  dsimp only [W2]
  rw [where_step, h13, h14, hc]
  rfl
theorem W2_v5 (c : Dev nD) : W2 m ρ c (Proc.devRef .tc main_v5) = Cert.ReferenceIdeal.Read.val_main_v5 (F := Ideal) (m ((c : Thread nD τ).loc main_arg1)) := by
  have h := W1_v5 m ρ c
  dsimp only [W2]
  generalize W1 m ρ c = F at h ⊢
  dsimp only [hostOps0_1]; after_results_simp; exact h
theorem W2_v6 (c : Dev nD) : W2 m ρ c (Proc.devRef .tc main_v6) = Cert.ReferenceIdeal.Read.val_main_v6 (F := Ideal) (m ((c : Thread nD τ).loc main_arg1)) := by
  have h := W1_v6 m ρ c
  dsimp only [W2]
  generalize W1 m ρ c = F at h ⊢
  dsimp only [hostOps0_1]; after_results_simp; exact h
theorem W2_v8 (c : Dev nD) : W2 m ρ c (Proc.devRef .tc main_v8) = Cert.ReferenceIdeal.Read.val_main_v8 (F := Ideal) (m ((c : Thread nD τ).loc main_arg2)) := by
  have h := W1_v8 m ρ c
  dsimp only [W2]
  generalize W1 m ρ c = F at h ⊢
  dsimp only [hostOps0_1]; after_results_simp; exact h

/-! ## At region 0's entry (20 more operations) -/

/-- The per-edge coefficient: factor at the source · weight · factor at the target. -/
theorem W3_v31 (c : Dev nD) : W3 m ρ c (Proc.devRef .tc main_v31) = Cert.ReferenceIdeal.Read.val_main_v31 (F := Ideal) (m ((c : Thread nD τ).loc main_arg1)) (m ((c : Thread nD τ).loc main_arg2)) := by
  have h15 := W2_v15 m ρ c; have h5 := W2_v5 m ρ c; have h6 := W2_v6 m ρ c; have h8 := W2_v8 m ρ c
  dsimp only [W3]
  generalize W2 m ρ c = F at h15 h5 h6 h8 ⊢
  dsimp only [hostOps0_2]; after_results_simp
  rw [h15, h5, h6, h8]
  simp only [Cert.ReferenceIdeal.Read.val_main_c, Cert.ReferenceIdeal.Read.val_main_v16, Cert.ReferenceIdeal.Read.val_main_v17, Cert.ReferenceIdeal.Read.val_main_c_3, Cert.ReferenceIdeal.Read.val_main_v18, Cert.ReferenceIdeal.Read.val_main_v19, Cert.ReferenceIdeal.Read.val_main_v20, Cert.ReferenceIdeal.Read.val_main_v21, Cert.ReferenceIdeal.Read.val_main_v22, Cert.ReferenceIdeal.Read.val_main_v23, Cert.ReferenceIdeal.Read.val_main_c_4, Cert.ReferenceIdeal.Read.val_main_v24, Cert.ReferenceIdeal.Read.val_main_v25, Cert.ReferenceIdeal.Read.val_main_c_5, Cert.ReferenceIdeal.Read.val_main_v26, Cert.ReferenceIdeal.Read.val_main_v27, Cert.ReferenceIdeal.Read.val_main_v28, Cert.ReferenceIdeal.Read.val_main_v29, Cert.ReferenceIdeal.Read.val_main_v30, Cert.ReferenceIdeal.Read.val_main_v31]
  rfl
theorem W3_v5 (c : Dev nD) : W3 m ρ c (Proc.devRef .tc main_v5) = Cert.ReferenceIdeal.Read.val_main_v5 (F := Ideal) (m ((c : Thread nD τ).loc main_arg1)) := by
  have h := W2_v5 m ρ c
  dsimp only [W3]
  generalize W2 m ρ c = F at h ⊢
  dsimp only [hostOps0_2]; after_results_simp; exact h
theorem W3_v6 (c : Dev nD) : W3 m ρ c (Proc.devRef .tc main_v6) = Cert.ReferenceIdeal.Read.val_main_v6 (F := Ideal) (m ((c : Thread nD τ).loc main_arg1)) := by
  have h := W2_v6 m ρ c
  dsimp only [W3]
  generalize W2 m ρ c = F at h ⊢
  dsimp only [hostOps0_2]; after_results_simp; exact h

/-! ## The arguments, untouched -/

theorem W3_arg0 (c : Dev nD) : W3 m ρ c (Proc.devRef .tc main_arg0) = m ((c : Thread nD τ).loc main_arg0) := by
  dsimp only [W3, W2, W1, hostOps0, hostOps0_1, hostOps0_2]; after_results_simp
theorem W3_arg3 (c : Dev nD) : W3 m ρ c (Proc.devRef .tc main_arg3) = m ((c : Thread nD τ).loc main_arg3) := by
  dsimp only [W3, W2, W1, hostOps0, hostOps0_1, hostOps0_2]; after_results_simp
theorem W3_arg4 (c : Dev nD) : W3 m ρ c (Proc.devRef .tc main_arg4) = m ((c : Thread nD τ).loc main_arg4) := by
  dsimp only [W3, W2, W1, hostOps0, hostOps0_1, hostOps0_2]; after_results_simp
theorem W3_arg5 (c : Dev nD) : W3 m ρ c (Proc.devRef .tc main_arg5) = m ((c : Thread nD τ).loc main_arg5) := by
  dsimp only [W3, W2, W1, hostOps0, hostOps0_1, hostOps0_2]; after_results_simp
theorem W3_arg6 (c : Dev nD) : W3 m ρ c (Proc.devRef .tc main_arg6) = m ((c : Thread nD τ).loc main_arg6) := by
  dsimp only [W3, W2, W1, hostOps0, hostOps0_1, hostOps0_2]; after_results_simp
theorem W3_arg7 (c : Dev nD) : W3 m ρ c (Proc.devRef .tc main_arg7) = m ((c : Thread nD τ).loc main_arg7) := by
  dsimp only [W3, W2, W1, hostOps0, hostOps0_1, hostOps0_2]; after_results_simp
theorem W3_arg8 (c : Dev nD) : W3 m ρ c (Proc.devRef .tc main_arg8) = m ((c : Thread nD τ).loc main_arg8) := by
  dsimp only [W3, W2, W1, hostOps0, hostOps0_1, hostOps0_2]; after_results_simp
theorem W3_arg9 (c : Dev nD) : W3 m ρ c (Proc.devRef .tc main_arg9) = m ((c : Thread nD τ).loc main_arg9) := by
  dsimp only [W3, W2, W1, hostOps0, hostOps0_1, hostOps0_2]; after_results_simp
theorem W3_arg10 (c : Dev nD) : W3 m ρ c (Proc.devRef .tc main_arg10) = m ((c : Thread nD τ).loc main_arg10) := by
  dsimp only [W3, W2, W1, hostOps0, hostOps0_1, hostOps0_2]; after_results_simp

end Cert.KernelIdeal.Entry0

end
-- ==== Proof.Dense0.lean ====
/-
  Region 0: the first dense layer. The grid has 25 points; point t stages rows 2000·t … 2000·t+1999 of the
  [50000, 512] operand, the whole [512, 64] operand, and writes back rows 2000·t … 2000·t+1999 of the [50000, 64] result.
  The body's one store holds the product of the two staged blocks (the narrowing to bf16 is the identity on the
  extended reals, the accumulator is zero), so entry (r, c) of what point t writes back is
  ∑ k, A(2000·t + r, k) · B(k, c): the row block of ONE function of the two whole arrays, `prod`. The blocks tile
  the result, so after the region the result array is `prod` of the two operands as the region found them.
-/
import proofs.«167516_j5712306503711_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense0

open Idealize.ShloMosaic Idealize.ShloMosaic.TcCoe Idealize.SL.Sem
open Cert.KernelIdeal Cert.KernelIdeal.Gen
open Idealize.ShloMosaic.Pipeline (Dat Cfg Window)

/-- Entry (r, k) of a [R, 512] array, from an index of the [R, 64] result and a contraction index. -/
abbrev lrow {R : Nat} (i : (⟨2, ![R, 64]⟩ : Shape).Idx) (k : Fin 512) : (⟨2, ![R, 512]⟩ : Shape).Idx := fun a => match a with
  | ⟨0, _⟩ => ⟨(i 0).val, (i 0).isLt⟩
  | ⟨1, _⟩ => ⟨k.val, k.isLt⟩
/-- Entry (k, c) of the [512, 64] array. -/
abbrev rcol {R : Nat} (i : (⟨2, ![R, 64]⟩ : Shape).Idx) (k : Fin 512) : S512x64.Idx := fun a => match a with
  | ⟨0, _⟩ => ⟨k.val, k.isLt⟩
  | ⟨1, _⟩ => ⟨(i 1).val, (i 1).isLt⟩

theorem lhs_0 (i : S2000x64.Idx) (q : dot_S2000x512_S512x64_S2000x64_1_0_0_1_n_n.contr.Idx) : (dot_S2000x512_S512x64_S2000x64_1_0_0_1_n_n.lhsIdx i q 0).val = (i 0).val := by
  unfold DotDims.lhsIdx
  rw [dif_neg (show ¬(0 : Fin S2000x512.rank) ∈ dot_S2000x512_S512x64_S2000x64_1_0_0_1_n_n.lhsBatch by decide), dif_pos (show (0 : Fin S2000x512.rank) ∈ dot_S2000x512_S512x64_S2000x64_1_0_0_1_n_n.lhsNonContracting by decide)]
  rfl
theorem lhs_1 (i : S2000x64.Idx) (q : dot_S2000x512_S512x64_S2000x64_1_0_0_1_n_n.contr.Idx) : (dot_S2000x512_S512x64_S2000x64_1_0_0_1_n_n.lhsIdx i q 1).val = (q ⟨0, by decide⟩).val :=
  dot_S2000x512_S512x64_S2000x64_1_0_0_1_n_n.lhsIdx_val_of_single rfl i q
theorem rhs_0 (i : S2000x64.Idx) (q : dot_S2000x512_S512x64_S2000x64_1_0_0_1_n_n.contr.Idx) : (dot_S2000x512_S512x64_S2000x64_1_0_0_1_n_n.rhsIdx i q 0).val = (q ⟨0, by decide⟩).val :=
  dot_S2000x512_S512x64_S2000x64_1_0_0_1_n_n.rhsIdx_val_of_single rfl i q
theorem rhs_1 (i : S2000x64.Idx) (q : dot_S2000x512_S512x64_S2000x64_1_0_0_1_n_n.contr.Idx) : (dot_S2000x512_S512x64_S2000x64_1_0_0_1_n_n.rhsIdx i q 1).val = (i 1).val := by
  unfold DotDims.rhsIdx
  rw [dif_neg (show ¬(1 : Fin S512x64.rank) ∈ dot_S2000x512_S512x64_S2000x64_1_0_0_1_n_n.rhsBatch by decide), dif_pos (show (1 : Fin S512x64.rank) ∈ dot_S2000x512_S512x64_S2000x64_1_0_0_1_n_n.rhsNonContracting by decide)]
  rfl

/-- The staged blocks' product at entry (r, c): ∑ k, x0(r, k) · x1(k, c) (the zero accumulator adds nothing). -/
theorem blockProd_apply (x0 : FVec Ideal S2000x512 .bf16) (x1 : FVec Ideal S512x64 .bf16) (j : S2000x64.Idx) :
    matmul dot_S2000x512_S512x64_S2000x64_1_0_0_1_n_n none x0 x1 (constant S2000x64 .f32 0x00000000#32) j = ∑ k : Fin 512, x0 (lrow j k) * x1 (rcol j k) := by
  simp only [matmul]
  rw [Ideal.matmul_constant_zero_apply, ← Equiv.sum_comp (ValueIdx.contrEquiv1 dot_S2000x512_S512x64_S2000x64_1_0_0_1_n_n 512 rfl rfl).symm]
  refine Finset.sum_congr rfl fun k _ => ?_
  have hk := ValueIdx.contrEquiv1_symm_val dot_S2000x512_S512x64_S2000x64_1_0_0_1_n_n 512 rfl rfl k
  have el : dot_S2000x512_S512x64_S2000x64_1_0_0_1_n_n.lhsIdx j ((ValueIdx.contrEquiv1 dot_S2000x512_S512x64_S2000x64_1_0_0_1_n_n 512 rfl rfl).symm k) = lrow j k := funext fun a => Fin.ext (by
    match a with
    | ⟨0, _⟩ => exact lhs_0 _ _
    | ⟨1, _⟩ => exact (lhs_1 _ _).trans hk)
  have er : dot_S2000x512_S512x64_S2000x64_1_0_0_1_n_n.rhsIdx j ((ValueIdx.contrEquiv1 dot_S2000x512_S512x64_S2000x64_1_0_0_1_n_n 512 rfl rfl).symm k) = rcol j k := funext fun a => Fin.ext (by
    match a with
    | ⟨0, _⟩ => exact (rhs_0 _ _).trans hk
    | ⟨1, _⟩ => exact rhs_1 _ _)
  rw [el, er]

/-- The product of a [50000, 512] array with a [512, 64] array over the extended reals, entry by entry. -/
def prod (A : S50000x512.Idx → EReal) (B : S512x64.Idx → EReal) : S50000x64.Idx → EReal :=
  fun i => ∑ k : Fin 512, A (lrow i k) * B (rcol i k)

/-- The body's stored value at entry (r, c) of the block. -/
theorem pay_apply (x0 : Vec Ideal S2000x512 .f32) (x1 : Vec Ideal S512x64 .f32) (j : S2000x64.Idx) :
    k0_pay1 (F := Ideal) x0 x1 j = ∑ k : Fin 512, x0 (lrow j k) * x1 (rcol j k) := by
  unfold k0_pay1
  exact blockProd_apply _ _ j

theorem hz : (![0, 0] : Fin 2 → Nat) = fun _ => 0 := funext fun a => by fin_cases a <;> rfl

/-- The printed index maps, decided over the 25 grid points: the row-blocked operand moves with the result's row
    block; every other block index is zero; the result's row block index is the point's number. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every row block is some point's. -/
theorem idx_onto : ∀ q : Fin 25, ∃ t : Fin cfg0.N, win0_2.index t (0 : Fin 2) = q.val :=
  (by decide +kernel : ∀ q : Fin 25, ∃ t : Fin grid0.N, win0_2.index t (0 : Fin 2) = q.val)

section
variable (V : (c : Dev nD) → (b : Ref sig .tc) → Buf (Elt Ideal) ((c : Thread nD τ).loc b))

/-- What point t writes back is row block t of `prod` of the operands as the region finds them. -/
theorem flushed_eq (c : Dev nD) (t : Fin cfg0.N) :
    (dat0 (F := Ideal) V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x64) hz]
  obtain ⟨e0, e1, e2, e3, e4⟩ := idx_facts t
  funext j
  refine (pay_apply (iblk0 V c 0 t) (iblk0 V c 1 t) j).trans ?_
  have hj0 : (j 0).val < 2000 := (j 0).isLt
  have hj1 : (j 1).val < 64 := (j 1).isLt
  have key : ∀ (A : S50000x512.Idx → EReal) (B : S512x64.Idx → EReal),
      (∑ k : Fin 512, A (((cfg0.win 0).blk t).view.emb (lrow j k)) * B (((cfg0.win 1).blk t).view.emb (rcol j k)))
        = prod A B (((cfg0.win 2).blk t).view.emb j) := by
    intro A B
    unfold prod
    refine Finset.sum_congr rfl fun k _ => ?_
    have h0 : ((cfg0.win 0).blk t).view.emb (lrow j k) = lrow (R := 50000) (((cfg0.win 2).blk t).view.emb j) k := by
      funext a; apply Fin.ext
      match a with
      | ⟨0, _⟩ => show win0_0.index t (0 : Fin 2) * 2000 + 1 * (j 0).val = win0_2.index t (0 : Fin 2) * 2000 + 1 * (j 0).val; omega
      | ⟨1, _⟩ => show win0_0.index t (1 : Fin 2) * 512 + 1 * k.val = k.val; omega
    have h1 : ((cfg0.win 1).blk t).view.emb (rcol j k) = rcol (R := 50000) (((cfg0.win 2).blk t).view.emb j) k := by
      funext a; apply Fin.ext
      match a with
      | ⟨0, _⟩ => show win0_1.index t (0 : Fin 2) * 512 + 1 * k.val = k.val; omega
      | ⟨1, _⟩ => show win0_1.index t (1 : Fin 2) * 64 + 1 * (j 1).val = win0_2.index t (1 : Fin 2) * 64 + 1 * (j 1).val; omega
    rw [h0, h1]
  exact key (V c main_arg0) (V c main_arg3)

/-- An index of the result array is in point t's block iff each coordinate is in the block's range on its axis. -/
theorem mem_blk (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v32).slice (win0_2.rect t)).set ↔ _
  rw [View.set_slice_whole, Rect.mem_set_unit]
  exact Iff.rfl

/-- The 25 row blocks tile the result: row r lies in block r / 2000. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto ⟨(i 0).val / 2000, by omega⟩
  have q0 : win0_2.index t (0 : Fin 2) = (i 0).val / 2000 := ht
  obtain ⟨e0, e1, e2, e3, e4⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- THE RESULT ARRAY after the region: `prod` of the operands as the region found them. -/
theorem final (c : Dev nD) : (dat0 (F := Ideal) V c).arrAt 2 cfg0.N = prod (V c main_arg0) (V c main_arg3) :=
  (dat0 V c).arrAt_eq_of_cover 2 (prod (V c main_arg0) (V c main_arg3)) (fun t _ => flushed_eq V c t) cover

end

end Cert.KernelIdeal.Dense0

end
-- ==== Proof.Layer1.lean ====
/-
  The first graph layer. Region 0 leaves the product of the node features with the first weight; the host then
  gathers its rows at the edges' sources, scales each by the edge's coefficient, scatter-adds them onto zeros at the
  edges' targets, adds the bias to every row and clamps at zero from below. Region 0's result array is the reference's
  product (both are ∑ k, X(r, k) · W(k, c) over the extended reals, the same sum term by term), and the host
  operations are the reference's own, so at region 1's entry the hidden state is the reference's stage of the same
  name. The index vectors, the coefficients and the remaining arguments are carried through unchanged.
-/
import proofs.«167516_j5712306503711_1_alg».proof.Proof.Entry0
import proofs.«167516_j5712306503711_1_alg».proof.Proof.Dense0
import proofs.«167516_j5712306503711_1_alg».proof.Proof.Gen.ReferenceIdeal.Read
import Idealize.ShloMosaic.Lib.StableHlo.Run

set_option maxRecDepth 16384

noncomputable section

namespace Cert.KernelIdeal.Layer1

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- Region 0's function of its two operands is the reference's product of them. -/
theorem prod_eq (x0 : (⟨Cert.ReferenceIdeal.S50000x512, .f32⟩ : BufTy).Contents (Elt Ideal)) (x3 : (⟨Cert.ReferenceIdeal.S512x64, .f32⟩ : BufTy).Contents (Elt Ideal)) : Dense0.prod x0 x3 = Cert.ReferenceIdeal.Read.val_main_v32 (F := Ideal) x0 x3 := by
  funext i
  refine Eq.trans ?_ (Cert.ReferenceIdeal.Read.val_main_v32_apply x0 x3 i).symm
  unfold Dense0.prod
  refine Finset.sum_congr rfl fun k _ => ?_
  have el : Dense0.lrow i k = Cert.ReferenceIdeal.Read.lidx_main_v32 i k := funext fun a => by match a with | ⟨0, _⟩ => rfl | ⟨1, _⟩ => rfl
  have er : Dense0.rcol i k = Cert.ReferenceIdeal.Read.ridx_main_v32 i k := funext fun a => by match a with | ⟨0, _⟩ => rfl | ⟨1, _⟩ => rfl
  rw [el, er]

/-! ## At region 0's exit -/

/-- The first product. -/
theorem W4_v32 (c : Dev nD) : W4 m ρ c (Proc.devRef .tc main_v32) = Cert.ReferenceIdeal.Read.val_main_v32 (F := Ideal) (m ((c : Thread nD τ).loc main_arg0)) (m ((c : Thread nD τ).loc main_arg3)) :=
  (W4_arr m ρ c 2).trans ((Dense0.final (V3 m ρ) c).trans
    ((congrArg₂ Dense0.prod (Entry0.W3_arg0 m ρ c) (Entry0.W3_arg3 m ρ c)).trans (prod_eq _ _)))
theorem W4_v5 (c : Dev nD) : W4 m ρ c (Proc.devRef .tc main_v5) = Cert.ReferenceIdeal.Read.val_main_v5 (F := Ideal) (m ((c : Thread nD τ).loc main_arg1)) := (W4_of_ne m ρ c main_v5 (by decide)).trans (Entry0.W3_v5 m ρ c)
theorem W4_v6 (c : Dev nD) : W4 m ρ c (Proc.devRef .tc main_v6) = Cert.ReferenceIdeal.Read.val_main_v6 (F := Ideal) (m ((c : Thread nD τ).loc main_arg1)) := (W4_of_ne m ρ c main_v6 (by decide)).trans (Entry0.W3_v6 m ρ c)
theorem W4_v31 (c : Dev nD) : W4 m ρ c (Proc.devRef .tc main_v31) = Cert.ReferenceIdeal.Read.val_main_v31 (F := Ideal) (m ((c : Thread nD τ).loc main_arg1)) (m ((c : Thread nD τ).loc main_arg2)) := (W4_of_ne m ρ c main_v31 (by decide)).trans (Entry0.W3_v31 m ρ c)
theorem W4_arg4 (c : Dev nD) : W4 m ρ c (Proc.devRef .tc main_arg4) = m ((c : Thread nD τ).loc main_arg4) := (W4_of_ne m ρ c main_arg4 (by decide)).trans (Entry0.W3_arg4 m ρ c)
theorem W4_arg5 (c : Dev nD) : W4 m ρ c (Proc.devRef .tc main_arg5) = m ((c : Thread nD τ).loc main_arg5) := (W4_of_ne m ρ c main_arg5 (by decide)).trans (Entry0.W3_arg5 m ρ c)
theorem W4_arg6 (c : Dev nD) : W4 m ρ c (Proc.devRef .tc main_arg6) = m ((c : Thread nD τ).loc main_arg6) := (W4_of_ne m ρ c main_arg6 (by decide)).trans (Entry0.W3_arg6 m ρ c)
theorem W4_arg7 (c : Dev nD) : W4 m ρ c (Proc.devRef .tc main_arg7) = m ((c : Thread nD τ).loc main_arg7) := (W4_of_ne m ρ c main_arg7 (by decide)).trans (Entry0.W3_arg7 m ρ c)
theorem W4_arg8 (c : Dev nD) : W4 m ρ c (Proc.devRef .tc main_arg8) = m ((c : Thread nD τ).loc main_arg8) := (W4_of_ne m ρ c main_arg8 (by decide)).trans (Entry0.W3_arg8 m ρ c)
theorem W4_arg9 (c : Dev nD) : W4 m ρ c (Proc.devRef .tc main_arg9) = m ((c : Thread nD τ).loc main_arg9) := (W4_of_ne m ρ c main_arg9 (by decide)).trans (Entry0.W3_arg9 m ρ c)
theorem W4_arg10 (c : Dev nD) : W4 m ρ c (Proc.devRef .tc main_arg10) = m ((c : Thread nD τ).loc main_arg10) := (W4_of_ne m ρ c main_arg10 (by decide)).trans (Entry0.W3_arg10 m ρ c)

/-! ## At region 1's entry (19 operations and the clamp's 3) -/

/-- The first graph layer before the clamp. -/
theorem W5_v48 (c : Dev nD) : W5 m ρ c (Proc.devRef .tc main_v48) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [W5, hostOps1]; after_results_simp
  rw [W4_v32 m ρ c, W4_v5 m ρ c, W4_v6 m ρ c, W4_v31 m ρ c, W4_arg4 m ρ c]
  simp only [Cert.ReferenceIdeal.Read.val_main_c_6, Cert.ReferenceIdeal.Read.val_main_v33, Cert.ReferenceIdeal.Read.val_main_v34, Cert.ReferenceIdeal.Read.val_main_c_7, Cert.ReferenceIdeal.Read.val_main_v35, Cert.ReferenceIdeal.Read.val_main_v36, Cert.ReferenceIdeal.Read.val_main_v37, Cert.ReferenceIdeal.Read.val_main_v38, Cert.ReferenceIdeal.Read.val_main_v39, Cert.ReferenceIdeal.Read.val_main_v40, Cert.ReferenceIdeal.Read.val_main_v41, Cert.ReferenceIdeal.Read.val_main_v42, Cert.ReferenceIdeal.Read.val_main_cst_8, Cert.ReferenceIdeal.Read.val_main_v43, Cert.ReferenceIdeal.Read.val_main_v44, Cert.ReferenceIdeal.Read.val_main_v45, Cert.ReferenceIdeal.Read.val_main_v46, Cert.ReferenceIdeal.Read.val_main_v47, Cert.ReferenceIdeal.Read.val_main_v48]
  rfl
/-- The clamp at zero from below, over ANY contents at its entry. -/
theorem relu_step (F : Valuation τ sig (Elt Ideal)) :
    StableHlo.after hostOps1_1 F (Proc.devRef .tc main_v49)
      = maximumf (F (Proc.devRef .tc main_v48)) (broadcastInDim S50000x64 ![] bcast_S_S50000x64 (constant (F := Ideal) S_ .f32 0x00000000#32)) := by
  dsimp only [hostOps1_1]; after_results_simp
  rfl
/-- The hidden state after the first graph layer. -/
theorem W6_v49 (c : Dev nD) : W6 m ρ c (Proc.devRef .tc main_v49) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h := W5_v48 m ρ c
  dsimp only [W6]
  rw [relu_step, h]
  rfl
theorem W6_v5 (c : Dev nD) : W6 m ρ c (Proc.devRef .tc main_v5) = Cert.ReferenceIdeal.Read.val_main_v5 (F := Ideal) (m ((c : Thread nD τ).loc main_arg1)) := by
  dsimp only [W6, W5, hostOps1, hostOps1_1]; after_results_simp; exact W4_v5 m ρ c
theorem W6_v6 (c : Dev nD) : W6 m ρ c (Proc.devRef .tc main_v6) = Cert.ReferenceIdeal.Read.val_main_v6 (F := Ideal) (m ((c : Thread nD τ).loc main_arg1)) := by
  dsimp only [W6, W5, hostOps1, hostOps1_1]; after_results_simp; exact W4_v6 m ρ c
theorem W6_v31 (c : Dev nD) : W6 m ρ c (Proc.devRef .tc main_v31) = Cert.ReferenceIdeal.Read.val_main_v31 (F := Ideal) (m ((c : Thread nD τ).loc main_arg1)) (m ((c : Thread nD τ).loc main_arg2)) := by
  dsimp only [W6, W5, hostOps1, hostOps1_1]; after_results_simp; exact W4_v31 m ρ c
theorem W6_arg5 (c : Dev nD) : W6 m ρ c (Proc.devRef .tc main_arg5) = m ((c : Thread nD τ).loc main_arg5) := by
  dsimp only [W6, W5, hostOps1, hostOps1_1]; after_results_simp; exact W4_arg5 m ρ c
theorem W6_arg6 (c : Dev nD) : W6 m ρ c (Proc.devRef .tc main_arg6) = m ((c : Thread nD τ).loc main_arg6) := by
  dsimp only [W6, W5, hostOps1, hostOps1_1]; after_results_simp; exact W4_arg6 m ρ c
theorem W6_arg7 (c : Dev nD) : W6 m ρ c (Proc.devRef .tc main_arg7) = m ((c : Thread nD τ).loc main_arg7) := by
  dsimp only [W6, W5, hostOps1, hostOps1_1]; after_results_simp; exact W4_arg7 m ρ c
theorem W6_arg8 (c : Dev nD) : W6 m ρ c (Proc.devRef .tc main_arg8) = m ((c : Thread nD τ).loc main_arg8) := by
  dsimp only [W6, W5, hostOps1, hostOps1_1]; after_results_simp; exact W4_arg8 m ρ c
theorem W6_arg9 (c : Dev nD) : W6 m ρ c (Proc.devRef .tc main_arg9) = m ((c : Thread nD τ).loc main_arg9) := by
  dsimp only [W6, W5, hostOps1, hostOps1_1]; after_results_simp; exact W4_arg9 m ρ c
theorem W6_arg10 (c : Dev nD) : W6 m ρ c (Proc.devRef .tc main_arg10) = m ((c : Thread nD τ).loc main_arg10) := by
  dsimp only [W6, W5, hostOps1, hostOps1_1]; after_results_simp; exact W4_arg10 m ρ c

end Cert.KernelIdeal.Layer1

end
-- ==== Proof.Dense1.lean ====
/-
  Region 1: the second dense layer. Point t of the 25 stages rows 2000·t … 2000·t+1999 of the [50000, 64] hidden
  state and the whole [64, 64] weight, and writes back the same rows of the [50000, 64] result: entry (r, c) of the
  block is ∑ k, H(2000·t + r, k) · W(k, c), the row block of ONE function `prod` of the two whole arrays. The blocks
  tile the result, so after the region the result array is `prod` of the operands as the region found them.
-/
import proofs.«167516_j5712306503711_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense1

open Idealize.ShloMosaic Idealize.ShloMosaic.TcCoe Idealize.SL.Sem
open Cert.KernelIdeal Cert.KernelIdeal.Gen
open Idealize.ShloMosaic.Pipeline (Dat Cfg Window)

/-- Entry (r, k) of a [R, 64] array, from an index of the [R, 64] result and a contraction index. -/
abbrev lrow {R : Nat} (i : (⟨2, ![R, 64]⟩ : Shape).Idx) (k : Fin 64) : (⟨2, ![R, 64]⟩ : Shape).Idx := fun a => match a with
  | ⟨0, _⟩ => ⟨(i 0).val, (i 0).isLt⟩
  | ⟨1, _⟩ => ⟨k.val, k.isLt⟩
/-- Entry (k, c) of the [64, 64] array. -/
abbrev rcol {R : Nat} (i : (⟨2, ![R, 64]⟩ : Shape).Idx) (k : Fin 64) : S64x64.Idx := fun a => match a with
  | ⟨0, _⟩ => ⟨k.val, k.isLt⟩
  | ⟨1, _⟩ => ⟨(i 1).val, (i 1).isLt⟩

theorem lhs_0 (i : S2000x64.Idx) (q : dot_S2000x64_S64x64_S2000x64_1_0_0_1_n_n.contr.Idx) : (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_1 (i : S2000x64.Idx) (q : dot_S2000x64_S64x64_S2000x64_1_0_0_1_n_n.contr.Idx) : (dot_S2000x64_S64x64_S2000x64_1_0_0_1_n_n.lhsIdx i q 1).val = (q ⟨0, by decide⟩).val :=
  dot_S2000x64_S64x64_S2000x64_1_0_0_1_n_n.lhsIdx_val_of_single rfl i q
theorem rhs_0 (i : S2000x64.Idx) (q : dot_S2000x64_S64x64_S2000x64_1_0_0_1_n_n.contr.Idx) : (dot_S2000x64_S64x64_S2000x64_1_0_0_1_n_n.rhsIdx i q 0).val = (q ⟨0, by decide⟩).val :=
  dot_S2000x64_S64x64_S2000x64_1_0_0_1_n_n.rhsIdx_val_of_single rfl i q
theorem rhs_1 (i : S2000x64.Idx) (q : dot_S2000x64_S64x64_S2000x64_1_0_0_1_n_n.contr.Idx) : (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The staged blocks' product at entry (r, c): ∑ k, x0(r, k) · x1(k, c) (the zero accumulator adds nothing). -/
theorem blockProd_apply (x0 : FVec Ideal S2000x64 .bf16) (x1 : FVec Ideal S64x64 .bf16) (j : S2000x64.Idx) :
    matmul dot_S2000x64_S64x64_S2000x64_1_0_0_1_n_n none x0 x1 (constant S2000x64 .f32 0x00000000#32) j = ∑ k : Fin 64, x0 (lrow j k) * x1 (rcol j k) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx j ((ValueIdx.contrEquiv1 dot_S2000x64_S64x64_S2000x64_1_0_0_1_n_n 64 rfl rfl).symm k) = lrow j k := funext fun a => Fin.ext (by
    match a with
    | ⟨0, _⟩ => exact lhs_0 _ _
    | ⟨1, _⟩ => exact (lhs_1 _ _).trans hk)
  have er : dot_S2000x64_S64x64_S2000x64_1_0_0_1_n_n.rhsIdx j ((ValueIdx.contrEquiv1 dot_S2000x64_S64x64_S2000x64_1_0_0_1_n_n 64 rfl rfl).symm k) = rcol j k := funext fun a => Fin.ext (by
    match a with
    | ⟨0, _⟩ => exact (rhs_0 _ _).trans hk
    | ⟨1, _⟩ => exact rhs_1 _ _)
  rw [el, er]

/-- The product of a [50000, 64] array with a [64, 64] array over the extended reals, entry by entry. -/
def prod (A : S50000x64.Idx → EReal) (B : S64x64.Idx → EReal) : S50000x64.Idx → EReal :=
  fun i => ∑ k : Fin 64, A (lrow i k) * B (rcol i k)

/-- The body's stored value at entry (r, c) of the block (the cast to its own shape is the identity). -/
theorem pay_apply (x0 : Vec Ideal S2000x64 .f32) (x1 : Vec Ideal S64x64 .f32) (j : S2000x64.Idx) :
    k1_pay1 (F := Ideal) x0 x1 j = ∑ k : Fin 64, x0 (lrow j k) * x1 (rcol j k) := by
  unfold k1_pay1
  rw [shapeCast_self]
  exact blockProd_apply _ _ j

theorem hz : (![0, 0] : Fin 2 → Nat) = fun _ => 0 := funext fun a => by fin_cases a <;> rfl

/-- The printed index maps, decided over the 25 grid points: the row-blocked operand moves with the result's row
    block; every other block index is zero; the result's row block index is the point's number. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Every row block is some point's. -/
theorem idx_onto : ∀ q : Fin 25, ∃ t : Fin cfg1.N, win1_2.index t (0 : Fin 2) = q.val :=
  (by decide +kernel : ∀ q : Fin 25, ∃ t : Fin grid1.N, win1_2.index t (0 : Fin 2) = q.val)

section
variable (V : (c : Dev nD) → (b : Ref sig .tc) → Buf (Elt Ideal) ((c : Thread nD τ).loc b))

/-- What point t writes back is row block t of `prod` of the operands as the region finds them. -/
theorem flushed_eq (c : Dev nD) (t : Fin cfg1.N) :
    (dat1 (F := Ideal) V c).flushed 2 t = ((cfg1.win 2).blk t).view.read (Elt Ideal) (prod (V c main_v49) (V c main_arg5)) := by
  show (cfg1.win 2).cut (grid1.coords t) ((dat1 V c).after 2 t) = _
  rw [after1_2]
  unfold out1_2
  rw [View.canon_unit_zero hz]
  simp only [View.ld_unit_zero (S := S2000x64) hz, View.ld_unit_zero (S := S64x64) hz]
  obtain ⟨e0, e1, e2, e3, e4⟩ := idx_facts t
  funext j
  refine (pay_apply (iblk1 V c 0 t) (iblk1 V c 1 t) j).trans ?_
  have hj0 : (j 0).val < 2000 := (j 0).isLt
  have hj1 : (j 1).val < 64 := (j 1).isLt
  have key : ∀ (A : S50000x64.Idx → EReal) (B : S64x64.Idx → EReal),
      (∑ k : Fin 64, A (((cfg1.win 0).blk t).view.emb (lrow j k)) * B (((cfg1.win 1).blk t).view.emb (rcol j k)))
        = prod A B (((cfg1.win 2).blk t).view.emb j) := by
    intro A B
    unfold prod
    refine Finset.sum_congr rfl fun k _ => ?_
    have h0 : ((cfg1.win 0).blk t).view.emb (lrow j k) = lrow (R := 50000) (((cfg1.win 2).blk t).view.emb j) k := by
      funext a; apply Fin.ext
      match a with
      | ⟨0, _⟩ => show win1_0.index t (0 : Fin 2) * 2000 + 1 * (j 0).val = win1_2.index t (0 : Fin 2) * 2000 + 1 * (j 0).val; omega
      | ⟨1, _⟩ => show win1_0.index t (1 : Fin 2) * 64 + 1 * k.val = k.val; omega
    have h1 : ((cfg1.win 1).blk t).view.emb (rcol j k) = rcol (R := 50000) (((cfg1.win 2).blk t).view.emb j) k := by
      funext a; apply Fin.ext
      match a with
      | ⟨0, _⟩ => show win1_1.index t (0 : Fin 2) * 64 + 1 * k.val = k.val; omega
      | ⟨1, _⟩ => show win1_1.index t (1 : Fin 2) * 64 + 1 * (j 1).val = win1_2.index t (1 : Fin 2) * 64 + 1 * (j 1).val; omega
    rw [h0, h1]
  exact key (V c main_v49) (V c main_arg5)

/-- An index of the result array is in point t's block iff each coordinate is in the block's range on its axis. -/
theorem mem_blk (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v50).slice (win1_2.rect t)).set ↔ _
  rw [View.set_slice_whole, Rect.mem_set_unit]
  exact Iff.rfl

/-- The 25 row blocks tile the result: row r lies in block r / 2000. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := idx_onto ⟨(i 0).val / 2000, by omega⟩
  have q0 : win1_2.index t (0 : Fin 2) = (i 0).val / 2000 := ht
  obtain ⟨e0, e1, e2, e3, e4⟩ := idx_facts t
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- THE RESULT ARRAY after the region: `prod` of the operands as the region found them. -/
theorem final (c : Dev nD) : (dat1 (F := Ideal) V c).arrAt 2 cfg1.N = prod (V c main_v49) (V c main_arg5) :=
  (dat1 V c).arrAt_eq_of_cover 2 (prod (V c main_v49) (V c main_arg5)) (fun t _ => flushed_eq V c t) cover

end

end Cert.KernelIdeal.Dense1

end
-- ==== Proof.Twice.lean ====
/-
  The reference normalises the graph TWICE, once inside each graph layer, from the same edge list and weights; the
  kernel's program does it once and reuses the result. The second computation is the first one, operation for
  operation: its source and target index vectors, and its per-edge coefficients, are the same functions of the
  two arguments.
-/
import proofs.«167516_j5712306503711_1_alg».proof.Proof.Gen.ReferenceIdeal.Read

set_option maxRecDepth 16384

noncomputable section

namespace Cert.ReferenceIdeal.Twice

open Idealize.ShloMosaic Idealize.ShloMosaic.TcCoe Idealize.SL.Sem
open Cert.ReferenceIdeal

variable (x1 : (⟨Cert.ReferenceIdeal.S2x800000, .i32⟩ : BufTy).Contents (Elt Ideal)) (x2 : (⟨Cert.ReferenceIdeal.S800000, .f32⟩ : BufTy).Contents (Elt Ideal))

/-- The sources, with the self loops appended: the same vector both times. -/
theorem row_again : Cert.ReferenceIdeal.Read.val_main_v55 (F := Ideal) x1 = Cert.ReferenceIdeal.Read.val_main_v5 (F := Ideal) x1 := rfl
/-- The targets, with the self loops appended: the same vector both times. -/
theorem col_again : Cert.ReferenceIdeal.Read.val_main_v56 (F := Ideal) x1 = Cert.ReferenceIdeal.Read.val_main_v6 (F := Ideal) x1 := rfl
/-- The weights, with a one per self loop appended. -/
theorem weight_again : Cert.ReferenceIdeal.Read.val_main_v58 (F := Ideal) x2 = Cert.ReferenceIdeal.Read.val_main_v8 (F := Ideal) x2 := rfl
/-- The per-node factor. -/
theorem factor_again : Cert.ReferenceIdeal.Read.val_main_v65 (F := Ideal) x1 x2 = Cert.ReferenceIdeal.Read.val_main_v15 (F := Ideal) x1 x2 := by
  simp only [Cert.ReferenceIdeal.Read.val_main_cst_10, Cert.ReferenceIdeal.Read.val_main_v59, Cert.ReferenceIdeal.Read.val_main_v60, Cert.ReferenceIdeal.Read.val_main_v61, Cert.ReferenceIdeal.Read.val_main_cst_11, Cert.ReferenceIdeal.Read.val_main_v62, Cert.ReferenceIdeal.Read.val_main_v63, Cert.ReferenceIdeal.Read.val_main_v64, Cert.ReferenceIdeal.Read.val_main_cst_12, Cert.ReferenceIdeal.Read.val_main_call2_v0, Cert.ReferenceIdeal.Read.val_main_call2_v1, Cert.ReferenceIdeal.Read.val_main_v65, Cert.ReferenceIdeal.Read.val_main_cst_0, Cert.ReferenceIdeal.Read.val_main_v9, Cert.ReferenceIdeal.Read.val_main_v10, Cert.ReferenceIdeal.Read.val_main_v11, Cert.ReferenceIdeal.Read.val_main_cst_1, Cert.ReferenceIdeal.Read.val_main_v12, Cert.ReferenceIdeal.Read.val_main_v13, Cert.ReferenceIdeal.Read.val_main_v14, Cert.ReferenceIdeal.Read.val_main_cst_2, Cert.ReferenceIdeal.Read.val_main_call0_v0, Cert.ReferenceIdeal.Read.val_main_call0_v1, Cert.ReferenceIdeal.Read.val_main_v15]
  rw [col_again, weight_again]
/-- The per-edge coefficient. -/
theorem coef_again : Cert.ReferenceIdeal.Read.val_main_v81 (F := Ideal) x1 x2 = Cert.ReferenceIdeal.Read.val_main_v31 (F := Ideal) x1 x2 := by
  simp only [Cert.ReferenceIdeal.Read.val_main_c_13, Cert.ReferenceIdeal.Read.val_main_v66, Cert.ReferenceIdeal.Read.val_main_v67, Cert.ReferenceIdeal.Read.val_main_c_14, Cert.ReferenceIdeal.Read.val_main_v68, Cert.ReferenceIdeal.Read.val_main_v69, Cert.ReferenceIdeal.Read.val_main_v70, Cert.ReferenceIdeal.Read.val_main_v71, Cert.ReferenceIdeal.Read.val_main_v72, Cert.ReferenceIdeal.Read.val_main_v73, Cert.ReferenceIdeal.Read.val_main_c_15, Cert.ReferenceIdeal.Read.val_main_v74, Cert.ReferenceIdeal.Read.val_main_v75, Cert.ReferenceIdeal.Read.val_main_c_16, Cert.ReferenceIdeal.Read.val_main_v76, Cert.ReferenceIdeal.Read.val_main_v77, Cert.ReferenceIdeal.Read.val_main_v78, Cert.ReferenceIdeal.Read.val_main_v79, Cert.ReferenceIdeal.Read.val_main_v80, Cert.ReferenceIdeal.Read.val_main_v81, Cert.ReferenceIdeal.Read.val_main_c, Cert.ReferenceIdeal.Read.val_main_v16, Cert.ReferenceIdeal.Read.val_main_v17, Cert.ReferenceIdeal.Read.val_main_c_3, Cert.ReferenceIdeal.Read.val_main_v18, Cert.ReferenceIdeal.Read.val_main_v19, Cert.ReferenceIdeal.Read.val_main_v20, Cert.ReferenceIdeal.Read.val_main_v21, Cert.ReferenceIdeal.Read.val_main_v22, Cert.ReferenceIdeal.Read.val_main_v23, Cert.ReferenceIdeal.Read.val_main_c_4, Cert.ReferenceIdeal.Read.val_main_v24, Cert.ReferenceIdeal.Read.val_main_v25, Cert.ReferenceIdeal.Read.val_main_c_5, Cert.ReferenceIdeal.Read.val_main_v26, Cert.ReferenceIdeal.Read.val_main_v27, Cert.ReferenceIdeal.Read.val_main_v28, Cert.ReferenceIdeal.Read.val_main_v29, Cert.ReferenceIdeal.Read.val_main_v30, Cert.ReferenceIdeal.Read.val_main_v31]
  rw [row_again, col_again, weight_again, factor_again]

end Cert.ReferenceIdeal.Twice

end
-- ==== Proof.Dense2.lean ====
/-
  Region 2: the two output heads as ONE dense layer. Point t of the 25 stages rows 2000·t … 2000·t+1999 of the
  [50000, 64] hidden state, the whole [64, 48] weight and the whole [48] bias, and writes back the same rows of the
  [50000, 48] result: entry (r, c) of the block is ∑ k, H(2000·t + r, k) · W(k, c) + b(c) — the bias, cast to one row,
  is laid along every row —, the row block of ONE function `prod` of the three whole arrays. The blocks tile the
  result, so after the region the result array is `prod` of the operands as the region found them.
-/
import proofs.«167516_j5712306503711_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense2

open Idealize.ShloMosaic Idealize.ShloMosaic.TcCoe Idealize.SL.Sem
open Cert.KernelIdeal Cert.KernelIdeal.Gen
open Idealize.ShloMosaic.Pipeline (Dat Cfg Window)

/-- Entry (r, k) of a [R, 64] array, from an index of the [R, 48] result and a contraction index. -/
abbrev lrow {R : Nat} (i : (⟨2, ![R, 48]⟩ : Shape).Idx) (k : Fin 64) : (⟨2, ![R, 64]⟩ : Shape).Idx := fun a => match a with
  | ⟨0, _⟩ => ⟨(i 0).val, (i 0).isLt⟩
  | ⟨1, _⟩ => ⟨k.val, k.isLt⟩
/-- Entry (k, c) of the [64, 48] array. -/
abbrev rcol {R : Nat} (i : (⟨2, ![R, 48]⟩ : Shape).Idx) (k : Fin 64) : S64x48.Idx := fun a => match a with
  | ⟨0, _⟩ => ⟨k.val, k.isLt⟩
  | ⟨1, _⟩ => ⟨(i 1).val, (i 1).isLt⟩

theorem lhs_0 (i : S2000x48.Idx) (q : dot_S2000x64_S64x48_S2000x48_1_0_0_1_n_n.contr.Idx) : (dot_S2000x64_S64x48_S2000x48_1_0_0_1_n_n.lhsIdx i q 0).val = (i 0).val := by
  unfold DotDims.lhsIdx
  rw [dif_neg (show ¬(0 : Fin S2000x64.rank) ∈ dot_S2000x64_S64x48_S2000x48_1_0_0_1_n_n.lhsBatch by decide), dif_pos (show (0 : Fin S2000x64.rank) ∈ dot_S2000x64_S64x48_S2000x48_1_0_0_1_n_n.lhsNonContracting by decide)]
  rfl
theorem lhs_1 (i : S2000x48.Idx) (q : dot_S2000x64_S64x48_S2000x48_1_0_0_1_n_n.contr.Idx) : (dot_S2000x64_S64x48_S2000x48_1_0_0_1_n_n.lhsIdx i q 1).val = (q ⟨0, by decide⟩).val :=
  dot_S2000x64_S64x48_S2000x48_1_0_0_1_n_n.lhsIdx_val_of_single rfl i q
theorem rhs_0 (i : S2000x48.Idx) (q : dot_S2000x64_S64x48_S2000x48_1_0_0_1_n_n.contr.Idx) : (dot_S2000x64_S64x48_S2000x48_1_0_0_1_n_n.rhsIdx i q 0).val = (q ⟨0, by decide⟩).val :=
  dot_S2000x64_S64x48_S2000x48_1_0_0_1_n_n.rhsIdx_val_of_single rfl i q
theorem rhs_1 (i : S2000x48.Idx) (q : dot_S2000x64_S64x48_S2000x48_1_0_0_1_n_n.contr.Idx) : (dot_S2000x64_S64x48_S2000x48_1_0_0_1_n_n.rhsIdx i q 1).val = (i 1).val := by
  unfold DotDims.rhsIdx
  rw [dif_neg (show ¬(1 : Fin S64x48.rank) ∈ dot_S2000x64_S64x48_S2000x48_1_0_0_1_n_n.rhsBatch by decide), dif_pos (show (1 : Fin S64x48.rank) ∈ dot_S2000x64_S64x48_S2000x48_1_0_0_1_n_n.rhsNonContracting by decide)]
  rfl

/-- The staged blocks' product at entry (r, c): ∑ k, x0(r, k) · x1(k, c) (the zero accumulator adds nothing). -/
theorem blockProd_apply (x0 : FVec Ideal S2000x64 .bf16) (x1 : FVec Ideal S64x48 .bf16) (j : S2000x48.Idx) :
    matmul dot_S2000x64_S64x48_S2000x48_1_0_0_1_n_n none x0 x1 (constant S2000x48 .f32 0x00000000#32) j = ∑ k : Fin 64, x0 (lrow j k) * x1 (rcol j k) := by
  simp only [matmul]
  rw [Ideal.matmul_constant_zero_apply, ← Equiv.sum_comp (ValueIdx.contrEquiv1 dot_S2000x64_S64x48_S2000x48_1_0_0_1_n_n 64 rfl rfl).symm]
  refine Finset.sum_congr rfl fun k _ => ?_
  have hk := ValueIdx.contrEquiv1_symm_val dot_S2000x64_S64x48_S2000x48_1_0_0_1_n_n 64 rfl rfl k
  have el : dot_S2000x64_S64x48_S2000x48_1_0_0_1_n_n.lhsIdx j ((ValueIdx.contrEquiv1 dot_S2000x64_S64x48_S2000x48_1_0_0_1_n_n 64 rfl rfl).symm k) = lrow j k := funext fun a => Fin.ext (by
    match a with
    | ⟨0, _⟩ => exact lhs_0 _ _
    | ⟨1, _⟩ => exact (lhs_1 _ _).trans hk)
  have er : dot_S2000x64_S64x48_S2000x48_1_0_0_1_n_n.rhsIdx j ((ValueIdx.contrEquiv1 dot_S2000x64_S64x48_S2000x48_1_0_0_1_n_n 64 rfl rfl).symm k) = rcol j k := funext fun a => Fin.ext (by
    match a with
    | ⟨0, _⟩ => exact (rhs_0 _ _).trans hk
    | ⟨1, _⟩ => exact rhs_1 _ _)
  rw [el, er]

/-- Entry c of the [48] bias, from an index of the [R, 48] result. -/
abbrev bcol {R : Nat} (i : (⟨2, ![R, 48]⟩ : Shape).Idx) : S48.Idx := fun a => match a with
  | ⟨0, _⟩ => ⟨(i 1).val, (i 1).isLt⟩

/-- The product of a [50000, 64] array with a [64, 48] array plus a [48] row added to every row, over the extended
    reals, entry by entry. -/
def prod (A : S50000x64.Idx → EReal) (B : S64x48.Idx → EReal) (b : S48.Idx → EReal) : S50000x48.Idx → EReal :=
  fun i => (∑ k : Fin 64, A (lrow i k) * B (rcol i k)) + b (bcol i)

/-- A vector of 48 entries cast to one row and laid along each of the 2000 rows, read at (r, c), is its entry c. -/
theorem rowBias_apply (x : Vec Ideal S48 .f32) (j : S2000x48.Idx) :
    broadcastTo S2000x48 (shapeCast S1x48 (shapeCast S48 x shapeCasts_S48_S48) shapeCasts_S48_S1x48) broadcasts_S1x48_S2000x48 j = x (bcol j) := by
  rw [shapeCast_self]
  have e1 := broadcastTo_apply (shapeCast S1x48 x shapeCasts_S48_S1x48) broadcasts_S1x48_S2000x48 j (ValueIdx.ix2 (0 : Fin 1) (⟨(j 1).val, (j 1).isLt⟩ : Fin 48)) (by
    intro a
    match a with
    | ⟨0, _⟩ => rfl
    | ⟨1, _⟩ => show (j 1).val = if (48 : Nat) = 1 then 0 else (j 1).val; rw [if_neg (by decide)])
  have e2 := shapeCast_apply x shapeCasts_S48_S1x48 (ValueIdx.ix2 (0 : Fin 1) (⟨(j 1).val, (j 1).isLt⟩ : Fin 48)) (bcol j) (by
    rw [Shape.rowMajor_val_two, Shape.rowMajor_val_one]; show (j 1).val = 0 * 48 + (j 1).val; omega)
  exact e1.trans e2

/-- The body's stored value at entry (r, c) of the block: the staged blocks' product there plus the bias' entry c. -/
theorem pay_apply (x0 : Vec Ideal S2000x64 .f32) (x1 : Vec Ideal S64x48 .f32) (x2 : Vec Ideal S48 .f32) (j : S2000x48.Idx) :
    k2_pay1 (F := Ideal) x0 x1 x2 j = (∑ k : Fin 64, x0 (lrow j k) * x1 (rcol j k)) + x2 (bcol j) := by
  unfold k2_pay1
  refine (ValueIdx.addf_apply _ _ j).trans ?_
  refine congrArg₂ (· + ·) ?_ (rowBias_apply x2 j)
  rw [shapeCast_self, shapeCast_self]
  exact blockProd_apply _ _ j

theorem hz : (![0, 0] : Fin 2 → Nat) = fun _ => 0 := funext fun a => by fin_cases a <;> rfl
theorem hz1 : (![0] : Fin 1 → Nat) = fun _ => 0 := funext fun a => by fin_cases a; rfl

/-- The printed index maps, decided over the 25 grid points: the row-blocked operand moves with the result's row
    block; every other block index is zero; the result's row block index is the point's number. -/
theorem idx_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_3.index t (1 : Fin 2) = 0
    ∧ win2_2.index t (0 : Fin 1) = 0 :=
  (by decide +kernel : ∀ t : Fin grid2.N, _)

/-- Every row block is some point's. -/
theorem idx_onto : ∀ q : Fin 25, ∃ t : Fin cfg2.N, win2_3.index t (0 : Fin 2) = q.val :=
  (by decide +kernel : ∀ q : Fin 25, ∃ t : Fin grid2.N, win2_3.index t (0 : Fin 2) = q.val)

section
variable (V : (c : Dev nD) → (b : Ref sig .tc) → Buf (Elt Ideal) ((c : Thread nD τ).loc b))

/-- What point t writes back is row block t of `prod` of the operands as the region finds them. -/
theorem flushed_eq (c : Dev nD) (t : Fin cfg2.N) :
    (dat2 (F := Ideal) V c).flushed 3 t = ((cfg2.win 3).blk t).view.read (Elt Ideal) (prod (V c main_v66) (V c main_v67) (V c main_v68)) := by
  show (cfg2.win 3).cut (grid2.coords t) ((dat2 V c).after 3 t) = _
  rw [after2_3]
  unfold out2_3
  rw [View.canon_unit_zero hz]
  simp only [View.ld_unit_zero (S := S2000x64) hz, View.ld_unit_zero (S := S64x48) hz, View.ld_unit_zero (S := S48) hz1]
  obtain ⟨e0, e1, e2, e3, e4, e5⟩ := idx_facts t
  funext j
  refine (pay_apply (iblk2 V c 0 t) (iblk2 V c 1 t) (iblk2 V c 2 t) j).trans ?_
  have hj0 : (j 0).val < 2000 := (j 0).isLt
  have hj1 : (j 1).val < 48 := (j 1).isLt
  have key : ∀ (A : S50000x64.Idx → EReal) (B : S64x48.Idx → EReal) (b : S48.Idx → EReal),
      (∑ k : Fin 64, A (((cfg2.win 0).blk t).view.emb (lrow j k)) * B (((cfg2.win 1).blk t).view.emb (rcol j k))) + b (((cfg2.win 2).blk t).view.emb (bcol j))
        = prod A B b (((cfg2.win 3).blk t).view.emb j) := by
    intro A B b
    unfold prod
    have h2 : ((cfg2.win 2).blk t).view.emb (bcol j) = bcol (R := 50000) (((cfg2.win 3).blk t).view.emb j) := by
      funext a; apply Fin.ext
      match a with
      | ⟨0, _⟩ => show win2_2.index t (0 : Fin 1) * 48 + 1 * (j 1).val = win2_3.index t (1 : Fin 2) * 48 + 1 * (j 1).val; omega
    refine congrArg₂ (· + ·) (Finset.sum_congr rfl fun k _ => ?_) (by rw [h2])
    have h0 : ((cfg2.win 0).blk t).view.emb (lrow j k) = lrow (R := 50000) (((cfg2.win 3).blk t).view.emb j) k := by
      funext a; apply Fin.ext
      match a with
      | ⟨0, _⟩ => show win2_0.index t (0 : Fin 2) * 2000 + 1 * (j 0).val = win2_3.index t (0 : Fin 2) * 2000 + 1 * (j 0).val; omega
      | ⟨1, _⟩ => show win2_0.index t (1 : Fin 2) * 64 + 1 * k.val = k.val; omega
    have h1 : ((cfg2.win 1).blk t).view.emb (rcol j k) = rcol (R := 50000) (((cfg2.win 3).blk t).view.emb j) k := by
      funext a; apply Fin.ext
      match a with
      | ⟨0, _⟩ => show win2_1.index t (0 : Fin 2) * 64 + 1 * k.val = k.val; omega
      | ⟨1, _⟩ => show win2_1.index t (1 : Fin 2) * 48 + 1 * (j 1).val = win2_3.index t (1 : Fin 2) * 48 + 1 * (j 1).val; omega
    rw [h0, h1]
  exact key (V c main_v66) (V c main_v67) (V c main_v68)

/-- An index of the result array is in point t's block iff each coordinate is in the block's range on its axis. -/
theorem mem_blk (t : Fin cfg2.N) (i : S50000x48.Idx) :
    i ∈ ((cfg2.win 3).blk t).view.set ↔ ∀ a : Fin 2, win2_3.index t a * S2000x48.size a ≤ (i a).val ∧ (i a).val < win2_3.index t a * S2000x48.size a + S2000x48.size a := by
  show i ∈ ((View.whole main_v69).slice (win2_3.rect t)).set ↔ _
  rw [View.set_slice_whole, Rect.mem_set_unit]
  exact Iff.rfl

/-- The 25 row blocks tile the result: row r lies in block r / 2000. -/
theorem cover (i : S50000x48.Idx) : ∃ t : Fin cfg2.N, (cfg2.win 3).flush t = true ∧ i ∈ ((cfg2.win 3).blk t).view.set := by
  have hi0 : (i 0).val < 50000 := (i 0).isLt
  have hi1 : (i 1).val < 48 := (i 1).isLt
  obtain ⟨t, ht⟩ := idx_onto ⟨(i 0).val / 2000, by omega⟩
  have q0 : win2_3.index t (0 : Fin 2) = (i 0).val / 2000 := ht
  obtain ⟨e0, e1, e2, e3, e4, e5⟩ := idx_facts t
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 48 ≤ (i 1).val ∧ (i 1).val < win2_3.index t (1 : Fin 2) * 48 + 48; omega

/-- THE RESULT ARRAY after the region: `prod` of the operands as the region found them. -/
theorem final (c : Dev nD) : (dat2 (F := Ideal) V c).arrAt 3 cfg2.N = prod (V c main_v66) (V c main_v67) (V c main_v68) :=
  (dat2 V c).arrAt_eq_of_cover 3 (prod (V c main_v66) (V c main_v67) (V c main_v68)) (fun t _ => flushed_eq V c t) cover

end

end Cert.KernelIdeal.Dense2

end
-- ==== Proof.Heads.lean ====
/-
  The two output heads. The kernel computes ONE dense layer with the two heads' weights side by side
  ([64, 16] and [64, 32] joined along the columns to [64, 48]; the biases [16] and [32] joined to [48]) and cuts the
  [50000, 48] result into columns 0…15 and 16…47. Entry (r, c) of the first cut is
  ∑ k, H(r, k) · W(k, c) + b(c) with c < 16, where the joined weight and bias read their first piece: the first
  head's own product plus its bias. Entry (r, c) of the second cut sits at column c + 16 of the fused result, where the
  joined weight and bias read their second piece at c: the second head. No law of arithmetic is used: each sum is the
  same sum, term by term.
-/
import proofs.«167516_j5712306503711_1_alg».proof.Proof.Dense2
import proofs.«167516_j5712306503711_1_alg».proof.Proof.Gen.ReferenceIdeal.Read

set_option maxRecDepth 16384

noncomputable section

namespace Cert.KernelIdeal.Heads

open Idealize.ShloMosaic Idealize.ShloMosaic.TcCoe Idealize.SL.Sem
open Cert.KernelIdeal Cert.KernelIdeal.Gen

/-- The fused weight: the two heads' weights side by side. -/
abbrev fusedW (w1 : S64x16.Idx → EReal) (w2 : S64x32.Idx → EReal) : S64x48.Idx → EReal :=
  concatenate S64x48 1 [⟨S64x16, w1⟩, ⟨S64x32, w2⟩] concatenates_S64x16_S64x32_S64x48_d1
/-- The fused bias: the two heads' biases end to end. -/
abbrev fusedB (b1 : S16.Idx → EReal) (b2 : S32.Idx → EReal) : S48.Idx → EReal :=
  concatenate S48 0 [⟨S16, b1⟩, ⟨S32, b2⟩] concatenates_S16_S32_S48_d0

/-- Columns 0…15 of the fused layer, at (r, c): the first head's product and bias there. -/
theorem cut0_apply (h : S50000x64.Idx → EReal) (w1 : S64x16.Idx → EReal) (w2 : S64x32.Idx → EReal)
    (b1 : S16.Idx → EReal) (b2 : S32.Idx → EReal) (i : S50000x16.Idx) :
    extractStridedSlice S50000x16 ![0, 0] (Dense2.prod h (fusedW w1 w2) (fusedB b1 b2)) slices_S50000x48_S50000x16_0_0 i
      = (∑ q : Fin 64, h (Cert.ReferenceIdeal.Read.lidx_main_v99 i q) * w1 (Cert.ReferenceIdeal.Read.ridx_main_v99 i q)) + b1 (Cert.ReferenceIdeal.Read.idx_main_v100 (Cert.ReferenceIdeal.Read.idx_main_v101 i)) := by
  have hi0 : (i 0).val < 50000 := (i 0).isLt
  have hi1 : (i 1).val < 16 := (i 1).isLt
  refine (extractStridedSlice_apply ![0, 0] _ slices_S50000x48_S50000x16_0_0 i
    (ValueIdx.ix2 (⟨(i 0).val, hi0⟩ : Fin 50000) (⟨(i 1).val, by omega⟩ : Fin 48)) (fun a => ?_)).trans ?_
  · match a with
    | ⟨0, _⟩ => show (i 0).val = 0 + (i 0).val; omega
    | ⟨1, _⟩ => show (i 1).val = 0 + (i 1).val; omega
  unfold Dense2.prod
  refine congrArg₂ (· + ·) (Finset.sum_congr rfl fun q _ => ?_) ?_
  · have e1 : Dense2.lrow (ValueIdx.ix2 (⟨(i 0).val, hi0⟩ : Fin 50000) (⟨(i 1).val, by omega⟩ : Fin 48)) q = Cert.ReferenceIdeal.Read.lidx_main_v99 i q :=
      funext fun a => by match a with | ⟨0, _⟩ => rfl | ⟨1, _⟩ => rfl
    have e2 := concatenate_pair_apply_left (1 : Fin 2) w1 w2 concatenates_S64x16_S64x32_S64x48_d1
      (Dense2.rcol (ValueIdx.ix2 (⟨(i 0).val, hi0⟩ : Fin 50000) (⟨(i 1).val, by omega⟩ : Fin 48)) q) rfl (Cert.ReferenceIdeal.Read.ridx_main_v99 i q)
      (fun b => by match b with | ⟨0, _⟩ => rfl | ⟨1, _⟩ => rfl)
    rw [e1]
    exact congrArg _ e2
  · exact concatenate_pair_apply_left (0 : Fin 1) b1 b2 concatenates_S16_S32_S48_d0
      (Dense2.bcol (ValueIdx.ix2 (⟨(i 0).val, hi0⟩ : Fin 50000) (⟨(i 1).val, by omega⟩ : Fin 48))) rfl (Cert.ReferenceIdeal.Read.idx_main_v100 (Cert.ReferenceIdeal.Read.idx_main_v101 i))
      (fun b => by match b with | ⟨0, _⟩ => rfl)

/-- Columns 16…47 of the fused layer, at (r, c): the second head's product and bias there. -/
theorem cut1_apply (h : S50000x64.Idx → EReal) (w1 : S64x16.Idx → EReal) (w2 : S64x32.Idx → EReal)
    (b1 : S16.Idx → EReal) (b2 : S32.Idx → EReal) (i : S50000x32.Idx) :
    extractStridedSlice S50000x32 ![0, 16] (Dense2.prod h (fusedW w1 w2) (fusedB b1 b2)) slices_S50000x48_S50000x32_0_16 i
      = (∑ q : Fin 64, h (Cert.ReferenceIdeal.Read.lidx_main_v103 i q) * w2 (Cert.ReferenceIdeal.Read.ridx_main_v103 i q)) + b2 (Cert.ReferenceIdeal.Read.idx_main_v104 (Cert.ReferenceIdeal.Read.idx_main_v105 i)) := by
  have hi0 : (i 0).val < 50000 := (i 0).isLt
  have hi1 : (i 1).val < 32 := (i 1).isLt
  refine (extractStridedSlice_apply ![0, 16] _ slices_S50000x48_S50000x32_0_16 i
    (ValueIdx.ix2 (⟨(i 0).val, hi0⟩ : Fin 50000) (⟨(i 1).val + 16, by omega⟩ : Fin 48)) (fun a => ?_)).trans ?_
  · match a with
    | ⟨0, _⟩ => show (i 0).val = 0 + (i 0).val; omega
    | ⟨1, _⟩ => show (i 1).val + 16 = 16 + (i 1).val; omega
  unfold Dense2.prod
  refine congrArg₂ (· + ·) (Finset.sum_congr rfl fun q _ => ?_) ?_
  · have e1 : Dense2.lrow (ValueIdx.ix2 (⟨(i 0).val, hi0⟩ : Fin 50000) (⟨(i 1).val + 16, by omega⟩ : Fin 48)) q = Cert.ReferenceIdeal.Read.lidx_main_v103 i q :=
      funext fun a => by match a with | ⟨0, _⟩ => rfl | ⟨1, _⟩ => rfl
    have e2 := concatenate_pair_apply_right (1 : Fin 2) w1 w2 concatenates_S64x16_S64x32_S64x48_d1
      (Dense2.rcol (ValueIdx.ix2 (⟨(i 0).val, hi0⟩ : Fin 50000) (⟨(i 1).val + 16, by omega⟩ : Fin 48)) q) rfl rfl (Cert.ReferenceIdeal.Read.ridx_main_v103 i q)
      (fun b hb => by match b with | ⟨0, _⟩ => rfl | ⟨1, _⟩ => exact absurd rfl hb)
      rfl
    rw [e1]
    exact congrArg _ e2
  · exact concatenate_pair_apply_right (0 : Fin 1) b1 b2 concatenates_S16_S32_S48_d0
      (Dense2.bcol (ValueIdx.ix2 (⟨(i 0).val, hi0⟩ : Fin 50000) (⟨(i 1).val + 16, by omega⟩ : Fin 48))) rfl rfl (Cert.ReferenceIdeal.Read.idx_main_v104 (Cert.ReferenceIdeal.Read.idx_main_v105 i))
      (fun b hb => by match b with | ⟨0, _⟩ => exact absurd rfl hb)
      rfl

/-- The first cut of the fused layer over the second layer's output IS the reference's first head. -/
theorem head0 (x0 : (⟨Cert.ReferenceIdeal.S50000x512, .f32⟩ : BufTy).Contents (Elt Ideal)) (x1 : (⟨Cert.ReferenceIdeal.S2x800000, .i32⟩ : BufTy).Contents (Elt Ideal)) (x2 : (⟨Cert.ReferenceIdeal.S800000, .f32⟩ : BufTy).Contents (Elt Ideal)) (x3 : (⟨Cert.ReferenceIdeal.S512x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S64x16, .f32⟩ : BufTy).Contents (Elt Ideal)) (x8 : (⟨Cert.ReferenceIdeal.S16, .f32⟩ : BufTy).Contents (Elt Ideal)) (x9 : (⟨Cert.ReferenceIdeal.S64x32, .f32⟩ : BufTy).Contents (Elt Ideal)) (x10 : (⟨Cert.ReferenceIdeal.S32, .f32⟩ : BufTy).Contents (Elt Ideal)) :
    extractStridedSlice S50000x16 ![0, 0] (Dense2.prod (Cert.ReferenceIdeal.Read.val_main_v98 (F := Ideal) x0 x1 x2 x3 x4 x5 x6) (fusedW x7 x9) (fusedB x8 x10)) slices_S50000x48_S50000x16_0_0
      = Cert.ReferenceIdeal.Read.val_main_v102 (F := Ideal) x0 x1 x2 x3 x4 x5 x6 x7 x8 := by
  funext i
  rw [Cert.ReferenceIdeal.Read.val_main_v102_apply, Cert.ReferenceIdeal.Read.val_main_v99_apply, Cert.ReferenceIdeal.Read.val_main_v101_apply, Cert.ReferenceIdeal.Read.val_main_v100_apply]
  exact cut0_apply _ x7 x9 x8 x10 i

/-- The second cut of the fused layer over the second layer's output IS the reference's second head. -/
theorem head1 (x0 : (⟨Cert.ReferenceIdeal.S50000x512, .f32⟩ : BufTy).Contents (Elt Ideal)) (x1 : (⟨Cert.ReferenceIdeal.S2x800000, .i32⟩ : BufTy).Contents (Elt Ideal)) (x2 : (⟨Cert.ReferenceIdeal.S800000, .f32⟩ : BufTy).Contents (Elt Ideal)) (x3 : (⟨Cert.ReferenceIdeal.S512x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S64x16, .f32⟩ : BufTy).Contents (Elt Ideal)) (x8 : (⟨Cert.ReferenceIdeal.S16, .f32⟩ : BufTy).Contents (Elt Ideal)) (x9 : (⟨Cert.ReferenceIdeal.S64x32, .f32⟩ : BufTy).Contents (Elt Ideal)) (x10 : (⟨Cert.ReferenceIdeal.S32, .f32⟩ : BufTy).Contents (Elt Ideal)) :
    extractStridedSlice S50000x32 ![0, 16] (Dense2.prod (Cert.ReferenceIdeal.Read.val_main_v98 (F := Ideal) x0 x1 x2 x3 x4 x5 x6) (fusedW x7 x9) (fusedB x8 x10)) slices_S50000x48_S50000x32_0_16
      = Cert.ReferenceIdeal.Read.val_main_v106 (F := Ideal) x0 x1 x2 x3 x4 x5 x6 x9 x10 := by
  funext i
  rw [Cert.ReferenceIdeal.Read.val_main_v106_apply, Cert.ReferenceIdeal.Read.val_main_v103_apply, Cert.ReferenceIdeal.Read.val_main_v105_apply, Cert.ReferenceIdeal.Read.val_main_v104_apply]
  exact cut1_apply _ x7 x9 x8 x10 i

end Cert.KernelIdeal.Heads

end
-- ==== Proof.Layer2.lean ====
/-
  The second graph layer. Region 1 leaves the product of the hidden state with the second weight — the reference's
  product, the same sum term by term —; the host then gathers, scales by the SAME per-edge coefficients computed
  before the first layer, scatter-adds at the targets and adds the second bias. The reference recomputes the index
  vectors and the coefficients inside its second layer; they are the first ones (`Twice`), so at region 2's entry the
  hidden state is the reference's stage of the same name. The two heads' weights and biases are joined side by side
  for region 2.
-/
import proofs.«167516_j5712306503711_1_alg».proof.Proof.Layer1
import proofs.«167516_j5712306503711_1_alg».proof.Proof.Dense1
import proofs.«167516_j5712306503711_1_alg».proof.Proof.Twice
import proofs.«167516_j5712306503711_1_alg».proof.Proof.Heads
import proofs.«167516_j5712306503711_1_alg».proof.Proof.Gen.ReferenceIdeal.Read
import Idealize.ShloMosaic.Lib.StableHlo.Run

set_option maxRecDepth 16384

noncomputable section

namespace Cert.KernelIdeal.Layer2

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- Region 1's function of its two operands, at the first layer's output, is the reference's product. -/
theorem prod_eq (x0 : (⟨Cert.ReferenceIdeal.S50000x512, .f32⟩ : BufTy).Contents (Elt Ideal)) (x1 : (⟨Cert.ReferenceIdeal.S2x800000, .i32⟩ : BufTy).Contents (Elt Ideal)) (x2 : (⟨Cert.ReferenceIdeal.S800000, .f32⟩ : BufTy).Contents (Elt Ideal)) (x3 : (⟨Cert.ReferenceIdeal.S512x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) :
    Dense1.prod (Cert.ReferenceIdeal.Read.val_main_v49 (F := Ideal) x0 x1 x2 x3 x4) x5 = Cert.ReferenceIdeal.Read.val_main_v82 (F := Ideal) x0 x1 x2 x3 x4 x5 := by
  funext i
  refine Eq.trans ?_ (Cert.ReferenceIdeal.Read.val_main_v82_apply x0 x1 x2 x3 x4 x5 i).symm
  unfold Dense1.prod
  refine Finset.sum_congr rfl fun k _ => ?_
  have el : Dense1.lrow i k = Cert.ReferenceIdeal.Read.lidx_main_v82 i k := funext fun a => by match a with | ⟨0, _⟩ => rfl | ⟨1, _⟩ => rfl
  have er : Dense1.rcol i k = Cert.ReferenceIdeal.Read.ridx_main_v82 i k := funext fun a => by match a with | ⟨0, _⟩ => rfl | ⟨1, _⟩ => rfl
  rw [el, er]

/-! ## At region 1's exit -/

/-- The second product. -/
theorem W7_v50 (c : Dev nD) : W7 m ρ c (Proc.devRef .tc main_v50) = Cert.ReferenceIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W7_arr m ρ c 2).trans ((Dense1.final (V6 m ρ) c).trans
    ((congrArg₂ Dense1.prod (Layer1.W6_v49 m ρ c) (Layer1.W6_arg5 m ρ c)).trans (prod_eq _ _ _ _ _ _)))
theorem W7_v5 (c : Dev nD) : W7 m ρ c (Proc.devRef .tc main_v5) = Cert.ReferenceIdeal.Read.val_main_v5 (F := Ideal) (m ((c : Thread nD τ).loc main_arg1)) := (W7_of_ne m ρ c main_v5 (by decide)).trans (Layer1.W6_v5 m ρ c)
theorem W7_v6 (c : Dev nD) : W7 m ρ c (Proc.devRef .tc main_v6) = Cert.ReferenceIdeal.Read.val_main_v6 (F := Ideal) (m ((c : Thread nD τ).loc main_arg1)) := (W7_of_ne m ρ c main_v6 (by decide)).trans (Layer1.W6_v6 m ρ c)
theorem W7_v31 (c : Dev nD) : W7 m ρ c (Proc.devRef .tc main_v31) = Cert.ReferenceIdeal.Read.val_main_v31 (F := Ideal) (m ((c : Thread nD τ).loc main_arg1)) (m ((c : Thread nD τ).loc main_arg2)) := (W7_of_ne m ρ c main_v31 (by decide)).trans (Layer1.W6_v31 m ρ c)
theorem W7_arg6 (c : Dev nD) : W7 m ρ c (Proc.devRef .tc main_arg6) = m ((c : Thread nD τ).loc main_arg6) := (W7_of_ne m ρ c main_arg6 (by decide)).trans (Layer1.W6_arg6 m ρ c)
theorem W7_arg7 (c : Dev nD) : W7 m ρ c (Proc.devRef .tc main_arg7) = m ((c : Thread nD τ).loc main_arg7) := (W7_of_ne m ρ c main_arg7 (by decide)).trans (Layer1.W6_arg7 m ρ c)
theorem W7_arg8 (c : Dev nD) : W7 m ρ c (Proc.devRef .tc main_arg8) = m ((c : Thread nD τ).loc main_arg8) := (W7_of_ne m ρ c main_arg8 (by decide)).trans (Layer1.W6_arg8 m ρ c)
theorem W7_arg9 (c : Dev nD) : W7 m ρ c (Proc.devRef .tc main_arg9) = m ((c : Thread nD τ).loc main_arg9) := (W7_of_ne m ρ c main_arg9 (by decide)).trans (Layer1.W6_arg9 m ρ c)
theorem W7_arg10 (c : Dev nD) : W7 m ρ c (Proc.devRef .tc main_arg10) = m ((c : Thread nD τ).loc main_arg10) := (W7_of_ne m ρ c main_arg10 (by decide)).trans (Layer1.W6_arg10 m ρ c)

/-! ## At region 2's entry (21 operations) -/

/-- The hidden state after the second graph layer. -/
theorem W8_v66 (c : Dev nD) : W8 m ρ c (Proc.devRef .tc main_v66) = Cert.ReferenceIdeal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  dsimp only [W8, hostOps2]; after_results_simp
  rw [W7_v50 m ρ c, W7_v5 m ρ c, W7_v6 m ρ c, W7_v31 m ρ c, W7_arg6 m ρ c]
  simp only [Cert.ReferenceIdeal.Read.val_main_c_17, Cert.ReferenceIdeal.Read.val_main_v83, Cert.ReferenceIdeal.Read.val_main_v84, Cert.ReferenceIdeal.Read.val_main_c_18, Cert.ReferenceIdeal.Read.val_main_v85, Cert.ReferenceIdeal.Read.val_main_v86, Cert.ReferenceIdeal.Read.val_main_v87, Cert.ReferenceIdeal.Read.val_main_v88, Cert.ReferenceIdeal.Read.val_main_v89, Cert.ReferenceIdeal.Read.val_main_v90, Cert.ReferenceIdeal.Read.val_main_v91, Cert.ReferenceIdeal.Read.val_main_v92, Cert.ReferenceIdeal.Read.val_main_cst_19, Cert.ReferenceIdeal.Read.val_main_v93, Cert.ReferenceIdeal.Read.val_main_v94, Cert.ReferenceIdeal.Read.val_main_v95, Cert.ReferenceIdeal.Read.val_main_v96, Cert.ReferenceIdeal.Read.val_main_v97, Cert.ReferenceIdeal.Read.val_main_v98]
  rw [Cert.ReferenceIdeal.Twice.row_again, Cert.ReferenceIdeal.Twice.col_again, Cert.ReferenceIdeal.Twice.coef_again]
  try rfl
/-- The two joins, over ANY contents at the stretch's entry: they read the four arguments only. -/
theorem fuseW_step (F : Valuation τ sig (Elt Ideal)) :
    StableHlo.after hostOps2 F (Proc.devRef .tc main_v67) = Heads.fusedW (F (Proc.devRef .tc main_arg7)) (F (Proc.devRef .tc main_arg9)) := by
  dsimp only [hostOps2]; after_results_simp
  rfl
theorem fuseB_step (F : Valuation τ sig (Elt Ideal)) :
    StableHlo.after hostOps2 F (Proc.devRef .tc main_v68) = Heads.fusedB (F (Proc.devRef .tc main_arg8)) (F (Proc.devRef .tc main_arg10)) := by
  dsimp only [hostOps2]; after_results_simp
  rfl
/-- The two heads' weights, side by side. -/
theorem W8_v67 (c : Dev nD) : W8 m ρ c (Proc.devRef .tc main_v67) = Heads.fusedW (m ((c : Thread nD τ).loc main_arg7)) (m ((c : Thread nD τ).loc main_arg9)) := by
  dsimp only [W8]
  rw [fuseW_step, W7_arg7 m ρ c, W7_arg9 m ρ c]
/-- The two heads' biases, end to end. -/
theorem W8_v68 (c : Dev nD) : W8 m ρ c (Proc.devRef .tc main_v68) = Heads.fusedB (m ((c : Thread nD τ).loc main_arg8)) (m ((c : Thread nD τ).loc main_arg10)) := by
  dsimp only [W8]
  rw [fuseB_step, W7_arg8 m ρ c, W7_arg10 m ρ c]

end Cert.KernelIdeal.Layer2

end
-- ==== Proof.Tail.lean ====
/-
  The end of the kernel's program. Region 2 leaves the fused output layer of the second hidden state (its function of
  the three operands, at the operands' contents); the last two host operations cut it into the two results, which are
  the reference's two heads (`Heads`). So each result buffer of the kernel's program ends at the reference's stage of
  the corresponding result, as a function of the eleven arguments.
-/
import proofs.«167516_j5712306503711_1_alg».proof.Proof.Layer2
import proofs.«167516_j5712306503711_1_alg».proof.Proof.Dense2
import proofs.«167516_j5712306503711_1_alg».proof.Proof.Heads
import proofs.«167516_j5712306503711_1_alg».proof.Proof.Gen.ReferenceIdeal.Read
import Idealize.ShloMosaic.Lib.StableHlo.Run

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The fused output layer after region 2. -/
theorem W9_v69 (c : Dev nD) : W9 m ρ c (Proc.devRef .tc main_v69)
    = Dense2.prod (Cert.ReferenceIdeal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Heads.fusedW (m ((c : Thread nD τ).loc main_arg7)) (m ((c : Thread nD τ).loc main_arg9))) (Heads.fusedB (m ((c : Thread nD τ).loc main_arg8)) (m ((c : Thread nD τ).loc main_arg10))) :=
  (W9_arr m ρ c 3).trans ((Dense2.final (V8 m ρ) c).trans (by
    show Dense2.prod (W8 m ρ c (Proc.devRef .tc main_v66)) (W8 m ρ c (Proc.devRef .tc main_v67)) (W8 m ρ c (Proc.devRef .tc main_v68)) = _
    rw [Layer2.W8_v66 m ρ c, Layer2.W8_v67 m ρ c, Layer2.W8_v68 m ρ c]))

/-- The first result of the kernel's program is the reference's first result, as a function of the arguments. -/
theorem out0 (c : Dev nD) : W10 m ρ c (Proc.devRef .tc main_v70) = Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  dsimp only [W10, hostOps3]; after_results_simp
  rw [W9_v69 m ρ c]
  exact Heads.head0 _ _ _ _ _ _ _ _ _ _ _

/-- The second result of the kernel's program is the reference's second result, as a function of the arguments. -/
theorem out1 (c : Dev nD) : W10 m ρ c (Proc.devRef .tc main_v71) = Cert.ReferenceIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) := by
  dsimp only [W10, hostOps3]; after_results_simp
  rw [W9_v69 m ρ c]
  exact Heads.head1 _ _ _ _ _ _ _ _ _ _ _

end Cert.KernelIdeal.Tail

end
-- ==== Proof.lean ====
/-
  A two-layer graph convolution with two linear output heads, against its plain reference.

  Both programs compute, on the extended reals, from node features X [50000, 512], an edge list [2, 800000], edge
  weights [800000] and the weights and biases of the layers:
    the graph's normalisation (self loops appended, weighted in-degree by scatter-add, its inverse square root where
    positive, a coefficient per edge);
    H₁ = max(0, A·(X·W₁) + b₁) and H₂ = A·(H₁·W₂) + b₂, where A gathers rows at the edges' sources, scales them by
    the coefficients and scatter-adds them at the edges' targets;
    the results H₂·V₁ + c₁ [50000, 16] and H₂·V₂ + c₂ [50000, 32].
  The kernel's program differs from the reference in three ways, none of which changes a value on the extended reals:
    the three matrix products run as tiled regions, 2000 rows per grid point, on operands narrowed to bf16 (the
    identity here) into a zero accumulator — each region's result array is the same sum ∑ k, L(r, k) · R(k, c), term by
    term, as the reference's product (`Dense0`, `Dense1`, `Dense2`);
    the normalisation is computed once and reused in the second layer, where the reference recomputes it (`Twice`);
    the two heads run as ONE product against the weights joined side by side, the result cut into its column ranges
    afterwards (`Heads`).
  Everything else is the same host operations applied to equal values (`Entry0`, `Layer1`, `Layer2`, `Tail`), so the
  kernel's two result buffers end at the reference's two stages, as functions of the eleven arguments. No law beyond
  "the same sum of the same terms" is used, so the precondition (finite inputs) is never opened. The three frames are
  the generated ones (the reference's is its generated run with the results dropped); nothing was rewritten by the
  idealization, so `preserves` is trivial.
-/
import proofs.«167516_j5712306503711_1_alg».proof.Defs
import proofs.«167516_j5712306503711_1_alg».proof.Proof.Gen.Kernel
import proofs.«167516_j5712306503711_1_alg».proof.Proof.Gen.Kernel.Frame
import proofs.«167516_j5712306503711_1_alg».proof.Proof.Gen.KernelIdeal
import proofs.«167516_j5712306503711_1_alg».proof.Proof.Gen.KernelIdeal.Frame
import proofs.«167516_j5712306503711_1_alg».proof.Proof.Gen.ReferenceIdeal
import proofs.«167516_j5712306503711_1_alg».proof.Proof.Gen.ReferenceIdeal.Run
import proofs.«167516_j5712306503711_1_alg».proof.Proof.Gen.ReferenceIdeal.Read
import proofs.«167516_j5712306503711_1_alg».proof.Proof.Gen.Pre_finite_inputs
import proofs.«167516_j5712306503711_1_alg».proof.Proof.KernelRun
import proofs.«167516_j5712306503711_1_alg».proof.Proof.Tail
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with each result at the reference's stage of it, read at the kernel's arguments: the kernel's
    by `Tail.out0` / `Tail.out1`, the reference's by its generated run, its arguments being the kernel's. -/
theorem algebraic : Cert.algebraic_KernelIdeal_ReferenceIdeal := by
  intro m ρ m' ρ' _ hagree
  refine ⟨fun c => Cert.ReferenceIdeal.Read.val_main_v102 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Read.val_main_v106 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.Results.run (F := Ideal) m ρ)
    obtain ⟨h0, h1, hargs⟩ := h c
    exact ⟨h0.trans (Cert.KernelIdeal.Tail.out0 m ρ c), h1.trans (Cert.KernelIdeal.Tail.out1 m ρ c), hargs⟩
  · refine (θ_run Cert.ReferenceIdeal.defs _ _).mono (fun r h c => ?_) (Cert.ReferenceIdeal.Value.run (F := Ideal) m' ρ')
    obtain ⟨h0, h1, hargs⟩ := h c
    obtain ⟨a0, a1, a2, a3, a4, a5, a6, a7, a8, a9, a10⟩ := hagree c
    refine ⟨h0.trans ?_, h1.trans ?_, hargs⟩
    · rw [Cert.ReferenceIdeal.Read.val_main_v102_eq, a0, a1, a2, a3, a4, a5, a6, a7, a8]
    · rw [Cert.ReferenceIdeal.Read.val_main_v106_eq, a0, a1, a2, a3, a4, a5, a6, a9, a10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
